-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S32768x2048 : Shape := ⟨2, ![32768, 2048]⟩
abbrev S1x2048 : Shape := ⟨2, ![1, 2048]⟩
abbrev S2048 : Shape := ⟨1, ![2048]⟩
abbrev S1024 : Shape := ⟨1, ![1024]⟩
abbrev S64x16 : Shape := ⟨2, ![64, 16]⟩
abbrev S_ : Shape := ⟨0, ![]⟩
abbrev S64 : Shape := ⟨1, ![64]⟩
abbrev S2048x1024 : Shape := ⟨2, ![2048, 1024]⟩
abbrev S1x1024 : Shape := ⟨2, ![1, 1024]⟩
abbrev S1024x2048 : Shape := ⟨2, ![1024, 2048]⟩

abbrev nBuf : Space → Nat
  | .hbm => 23
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048, .f32⟩
  | .hbm, ⟨3, _⟩ => ⟨S1024, .f32⟩
  | .hbm, ⟨4, _⟩ => ⟨S64x16, .f32⟩
  | .hbm, ⟨5, _⟩ => ⟨S_, .f32⟩
  | .hbm, ⟨6, _⟩ => ⟨S64, .f32⟩
  | .hbm, ⟨7, _⟩ => ⟨S1024, .f32⟩
  | .hbm, ⟨8, _⟩ => ⟨S64x16, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x16, .f32⟩
  | .hbm, ⟨17, _⟩ => ⟨S1024, .f32⟩
  | .hbm, ⟨18, _⟩ => ⟨S64x16, .f32⟩
  | .hbm, ⟨19, _⟩ => ⟨S1024, .f32⟩
  | .hbm, ⟨20, _⟩ => ⟨S2048, .f32⟩
  | .hbm, ⟨21, _⟩ => ⟨S1x2048, .f32⟩
  | .hbm, ⟨22, _⟩ => ⟨S32768x2048, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x2048, .f32⟩
  | .local _ .vmem, ⟨6, _⟩ => ⟨S1024x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_cst : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_cst_0 : Ref sig .tc := ⟨.hbm, 9, rfl⟩
abbrev main_call0_v7 : Ref sig .tc := ⟨.hbm, 10, rfl⟩
abbrev main_call0_v8 : Ref sig .tc := ⟨.hbm, 11, rfl⟩
abbrev main_call0_cst_1 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_call0_v16 : Ref sig .tc := ⟨.hbm, 20, rfl⟩
abbrev main_call0_v17 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x2048_S2048 : S1x2048.ShapeCasts S2048
  slices_S2048_S1024_0 : S2048.Slices ![0] S1024
  shapeCasts_S1024_S64x16 : S1024.ShapeCasts S64x16
  reducesTo_S64x16_S64_d1 : S64x16.ReducesTo [1] S64
  h_S_ : 0 < S_.numel
  slices_S2048_S1024_1024 : S2048.Slices ![1024] S1024
  bcast_S_S64 : S_.BroadcastsInDim S64 (![] : Fin 0 → Fin S64.rank)
  bcast_S64_S64x16_0 : S64.BroadcastsInDim S64x16 (![0] : Fin 1 → Fin S64x16.rank)
  shapeCasts_S64x16_S1024 : S64x16.ShapeCasts S1024
  concatenates_S1024_S1024_S2048_d0 : Shape.Concatenates [S1024, S1024] S2048 0
  shapeCasts_S2048_S1x2048 : S2048.ShapeCasts S1x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  reduces_S2048x1024_S1024 : S2048x1024.Reduces [0] S1024
  shapeCasts_S1024_S1x1024 : S1024.ShapeCasts S1x1024
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x2048.size a
  hwx0_0 : ∀ i : grid0.Coords, EltTy.bits .f32 = 32 ∨ (Rect.block (s := S32768x2048) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x2048.size a
  hwx0_1 : ∀ i : grid0.Coords, EltTy.bits .f32 = 32 ∨ (Rect.block (s := S1x2048) S1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S32768x2048.size a
  hwx1_0 : ∀ i : grid1.Coords, EltTy.bits .f32 = 32 ∨ (Rect.block (s := S32768x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S32768x2048.size a
  hwx1_2 : ∀ i : grid1.Coords, EltTy.bits .f32 = 32 ∨ (Rect.block (s := S32768x2048) S1024x2048.size (cc1_transform_2 i) (hinb1_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x2048 : Shape := ⟨2, ![32768, 2048]⟩
abbrev S32768x1024 : Shape := ⟨2, ![32768, 1024]⟩
abbrev S32768x64x16 : Shape := ⟨3, ![32768, 64, 16]⟩
abbrev S_ : Shape := ⟨0, ![]⟩
abbrev S64 : Shape := ⟨1, ![64]⟩
abbrev S1x64x1 : Shape := ⟨3, ![1, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x64x16, .f32⟩
  | .hbm, ⟨3, _⟩ => ⟨S32768x1024, .f32⟩
  | .hbm, ⟨4, _⟩ => ⟨S32768x64x16, .f32⟩
  | .hbm, ⟨5, _⟩ => ⟨S32768x64x16, .f32⟩
  | .hbm, ⟨6, _⟩ => ⟨S32768x64x16, .f32⟩
  | .hbm, ⟨7, _⟩ => ⟨S32768x64x16, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1x64x1, .f32⟩
  | .hbm, ⟨15, _⟩ => ⟨S32768x64x16, .f32⟩
  | .hbm, ⟨16, _⟩ => ⟨S32768x64x16, .f32⟩
  | .hbm, ⟨17, _⟩ => ⟨S1x64x1, .f32⟩
  | .hbm, ⟨18, _⟩ => ⟨S32768x64x16, .f32⟩
  | .hbm, ⟨19, _⟩ => ⟨S32768x64x16, .f32⟩
  | .hbm, ⟨20, _⟩ => ⟨S32768x1024, .f32⟩
  | .hbm, ⟨21, _⟩ => ⟨S32768x1024, .f32⟩
  | .hbm, ⟨22, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]

class Facts₀ : Prop where
  slices_S32768x2048_S32768x1024_0_0 : S32768x2048.Slices ![0, 0] S32768x1024
  shapeCasts_S32768x1024_S32768x64x16 : S32768x1024.ShapeCasts S32768x64x16
  slices_S32768x2048_S32768x1024_0_1024 : S32768x2048.Slices ![0, 1024] S32768x1024
  reducesTo_S32768x64x16_S64_d0_2 : S32768x64x16.ReducesTo [0, 2] S64
  h_S_ : 0 < S_.numel
  bcast_S_S64 : S_.BroadcastsInDim S64 (![] : Fin 0 → Fin S64.rank)
  bcast_S64_S1x64x1_1 : S64.BroadcastsInDim S1x64x1 (![1] : Fin 1 → Fin S1x64x1.rank)
  bcast_S1x64x1_S32768x64x16_0_1_2 : S1x64x1.BroadcastsInDim S32768x64x16 (![0, 1, 2] : Fin 3 → Fin S32768x64x16.rank)
  shapeCasts_S32768x64x16_S32768x1024 : S32768x64x16.ShapeCasts S32768x1024
  concatenates_S32768x1024_S32768x1024_S32768x2048_d1 : Shape.Concatenates [S32768x1024, S32768x1024] S32768x2048 1

variable [Facts₀]

class Facts : Prop extends Facts₀ where

variable [Facts]
-- ==== Proof.K_R0Run.lean ====
import proofs.«178488_j21827023798275_2_alg».proof.Proof.Gen.Kernel.Launch
import proofs.«178488_j21827023798275_2_alg».proof.Proof.Gen.Kernel.Skeleton
import proofs.«178488_j21827023798275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (column sums of squares), its body case by case.

The grid is 2 column halves × 16 row blocks, a point `t` being column half `t / 16`, row block `t % 16`. At the first row
block of a half the body zeroes its accumulator; at every row block it adds the block's column sums of squares to it; at
the last row block it copies the accumulator into the output block. So there are three control cases: first (A), middle
(B), last (C). Everything is stated at a PARAMETER `V`, the buffer contents the region is entered with. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- "This is the first row block": the body's first branch condition, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last row block": the body's second branch condition. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The input window is never idle; the output window is idle, and not written back, except at a last row block. -/
theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-- One staging buffer of the output window, through which its contents are stated. -/
abbrev VO0_1 : View sig .tc .vmem S1x1024 .f32 := (Memref.whole cc0_stg1_0 : Memref sig .tc .vmem S1x1024 .f32).view
/-- Each window's current staging buffer at point `t`, as the pipeline passes it, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1x1024 .f32 := Memref.whole cc0_scratch0
abbrev VS0_0 : View sig .tc .vmem S1x1024 .f32 := scM0_0.view

/-- The scoped buffers that are neither a staging buffer of this kernel nor its accumulator (the other kernel's staging
    buffers), each whole at some contents: they ride through this region untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region beside its windows: the accumulator at some contents, the other scoped buffers,
    the generator register. -/
theorem PhiA0_eq (c : Dev nD) :
    (Pipeline.ΦA spec0 c : sProp 𝕄)
      = iprop(iprop((∃ d, owns (c : Thread nD τ) scM0_0 fullShare d) ∗ other0 c) ∗ (∃ r, prngReg c r)) := by
  unfold Pipeline.ΦA other0; rw [scopedRest0_eq]; simp only [scM0_0, owns_whole]; try rfl

set_option maxHeartbeats 1000000 in
/-- CASE A (first row block): the accumulator, found at anything, ends with the pieces `LS0`; the output buffer is handed
    back untouched. The pieces are found by running the body. -/
noncomputable def kernelRun0_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S2048x1024 .f32) :
    Σ' (L1 : List (View.Piece (Elt F) S1x1024 .f32)), { LS0 : List (View.Piece (Elt F) S1x1024 .f32) //
      ∀ (xi1 : Vec F S1x1024 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- CASE B (a middle row block): the accumulator, found at `xs0`, ends with the pieces `LS0`; the output buffer is handed
    back untouched. -/
noncomputable def kernelRun0_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S2048x1024 .f32) (xs0 : Vec F S1x1024 .f32) :
    Σ' (L1 : List (View.Piece (Elt F) S1x1024 .f32)), { LS0 : List (View.Piece (Elt F) S1x1024 .f32) //
      ∀ (xi1 : Vec F S1x1024 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- CASE C (last row block): the accumulator, found at `xs0`, ends with the pieces `LS0`, and the output buffer, found at
    anything, with the pieces `L1`. -/
noncomputable def kernelRun0_C (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) :
    Σ' (L1 : List (View.Piece (Elt F) S1x1024 .f32)), { LS0 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨?_, ?_, fun E K => ?run⟩
  case run =>
    simp only [cc0__sumsq_kernel_eq_skeleton]; unfold cc0__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K_R0.lean ====
import proofs.«178488_j21827023798275_2_alg».proof.Proof.Gen.Kernel.Launch
import proofs.«178488_j21827023798275_2_alg».proof.Proof.Gen.Kernel.Skeleton
import proofs.«178488_j21827023798275_2_alg».proof.Proof.Gen.Kernel.Points
import proofs.«178488_j21827023798275_2_alg».proof.Proof.K_R0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (column sums of squares): what its accumulator and its output block hold point by point, the
    proof data and the body obligation. Everything at a PARAMETER `V`, the buffer contents the region is entered with. -/

variable (V : (c : Dev nD) → (b : Ref sig .tc) → Buf (Elt F) ((c : Thread nD τ).loc b))

/-- Case A stores nothing into the output block: a placeholder nothing consults. -/
def out0_A_1 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S2048x1024 .f32) : Vec F S1x1024 .f32 :=
  VO0_1.read (Elt F) (VO0_1.writes (Elt F) VO0_1.junk (kernelRun0_A c i arg2 harg2 arg3 harg3 arg4 harg4 hc0 hc1 x0).1)

/-- Case A's stores into the accumulator cover it. -/
theorem scover0_A_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S2048x1024 .f32) (y : S1x1024.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x1024.size (by sl_kernel_rfl) y

/-- What case A leaves in the accumulator. -/
def sout0_A_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S2048x1024 .f32) : Vec F S1x1024 .f32 :=
  VS0_0.read (Elt F) (VS0_0.writes (Elt F) VS0_0.junk (kernelRun0_A c i arg2 harg2 arg3 harg3 arg4 harg4 hc0 hc1 x0).2.1)

/-- Case B stores nothing into the output block: a placeholder nothing consults. -/
def out0_B_1 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S2048x1024 .f32) (xs0 : Vec F S1x1024 .f32) : Vec F S1x1024 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S2048x1024 .f32) (xs0 : Vec F S1x1024 .f32) (y : S1x1024.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x1024.size (by sl_kernel_rfl) y

/-- What case B leaves in the accumulator. -/
def sout0_B_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S2048x1024 .f32) (xs0 : Vec F S1x1024 .f32) : Vec F S1x1024 .f32 :=
  VS0_0.read (Elt F) (VS0_0.writes (Elt F) VS0_0.junk (kernelRun0_B c i arg2 harg2 arg3 harg3 arg4 harg4 hc0 hc1 x0 xs0).2.1)

/-- Case C's store into the output block covers it. -/
theorem cover0_C_1 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) (y : S1x1024.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1024.size (by sl_kernel_rfl) y

/-- What case C leaves in the output block. -/
def out0_C_1 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) : Vec F S1x1024 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) (y : S1x1024.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1024.size (by sl_kernel_rfl) y

/-- What case C leaves in the accumulator. -/
def sout0_C_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) : Vec F S1x1024 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- THE ACCUMULATION: after the body at position `n`, the pair (output block's buffer, accumulator): the case the position
    is in, run on the point's input block and — but at a first row block — on the accumulator the point before left. -/
def outsAt0 (c : Dev nD) : (n : ℕ) → n < cfg0.N → Vec F S1x1024 .f32 × Vec F S1x1024 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 16 = 0 then
      if h1 : (n + 1) % 16 = 15 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left in it, the other scoped buffers and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ other0 c) ∗ (∃ r, prngReg c r)) := by
  cases n with
  | zero => exact absurd rfl hz
  | succ n => rfl

/-- The proof data of the reduction pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the position's residue mod 16 says which case it is in; the invariant hands the body the
    accumulator at what the point before left (at anything at the very first point) and takes it back at this point's
    contents; the other scoped buffers, the generator register and the core's debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _)
            iexact Hoth
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Cert.Kernel.Hand

end
-- ==== Proof.K_R1.lean ====
import proofs.«178488_j21827023798275_2_alg».proof.Proof.Gen.Kernel.Launch
import proofs.«178488_j21827023798275_2_alg».proof.Proof.Gen.Kernel.Skeleton
import proofs.«178488_j21827023798275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the scaling): every point multiplies a block of 1024 rows by the scale row.

Everything is stated at a PARAMETER `V`, the buffer contents the region is entered with. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale row's staging buffer holds the row at every point, although it is fetched at the first only: its block
    index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x2048 := Rect.unit (s := S1024x2048) ![0, 0] S1024x2048.size inb_S1024x2048_S1024x2048_0_0
abbrev r1_1 : Rect S1x2048 := Rect.unit (s := S1x2048) ![0, 0] S1x2048.size inb_S1x2048_S1x2048_0_0

/-- What the body leaves in the output block: its one whole-block store, of the product of the row block with the
    scale row broadcast down the rows. -/
def out1_2 (x0 : Vec F S1024x2048 .f32) (x1 : Vec F S1x2048 .f32) : Vec F S1024x2048 .f32 :=
  View.canon [⟨r1_0, k1_pay1 (View.ld x0 r1_0) (View.ld x1 r1_1)⟩]

/-- The one store covers the block. -/
theorem cover1_2 (p0 : Vec F S1024x2048 .f32) (y : S1024x2048.Idx) :
    ∃ pc ∈ ([⟨r1_0, p0⟩] : List (View.Piece (Elt F) S1024x2048 .f32)), y ∈ pc.1.set :=
  View.cover_of_tiled [⟨r1_0, p0⟩] S1024x2048.size (by rfl) y

set_option maxHeartbeats 1000000 in
/-- The body on whole staging buffers: the two inputs are handed back as they were, the output holds `out1_2`. -/
theorem sound_kernel1 (c : Dev nD) (E : Set ℕ) (i : grid1.Coords) (arg1 : Memref sig .tc .vmem S1024x2048 .f32) (harg1 : arg1.IsWhole)
    (arg2 : Memref sig .tc .vmem S1x2048 .f32) (harg2 : arg2.IsWhole) (arg3 : Memref sig .tc .vmem S1024x2048 .f32) (harg3 : arg3.IsWhole)
    (x0 : Vec F S1024x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the scaling pipeline on core `c`: the arrays as the region finds them; after the body each input's
    buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Run.lean ====
import proofs.«178488_j21827023798275_2_alg».proof.Proof.Gen.Kernel.Launch
import proofs.«178488_j21827023798275_2_alg».proof.Proof.Gen.Kernel.Skeleton
import proofs.«178488_j21827023798275_2_alg».proof.Proof.Gen.Kernel.Points
import proofs.«178488_j21827023798275_2_alg».proof.Proof.K_R0
import proofs.«178488_j21827023798275_2_alg».proof.Proof.K_R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main is the reduction kernel, twenty host operations, the scaling kernel.

The buffer contents at each boundary are a fold from the launch memory: a kernel region leaves its arrays at what its
write-backs leave and every other buffer as entered; the host stretch applies its operations. The final state is read
against the last boundary's contents. -/

variable (m : (ℓ : Loc nD τ sig) → Buf (Elt F) ℓ) (ρ : Dev nD → PrngReg)

/-- Core `c`'s buffers at launch (the reduction kernel's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
/-- At the reduction kernel's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the host operations (the scaling kernel's entry). -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
/-- At the scaling kernel's exit. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- No host operation writes the argument. -/
theorem W2_main_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument ends as launched: it is an input window of both kernels and no host operation writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (E2 m ρ) c).arrAt_in 0 rfl _).trans (A_eq1 (E2 m ρ) c 0))
    _ = W1 m ρ c (Proc.devRef .tc main_arg0) := W2_main_arg0 m ρ c
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

/-- The result buffer ends at what the scaling kernel's write-backs leave. -/
theorem W3_main_v0 (c : Dev nD) : W3 m ρ c (Proc.devRef .tc main_v0) = (dat1 (E2 m ρ) c).arrAt 2 cfg1.N :=
  W3_arr m ρ c 2

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- The reduction kernel as a segment: entered from every unscoped buffer at the launch contents, left at `W1`. Its
    invariant takes the generator register and the scoped rest in and gives them back, the accumulator's last contents
    forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (E0 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling kernel as a segment: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final state has the result buffer at what the scaling kernel's write-backs leave and the argument as launched. -/
theorem run_all : θ_run defs (onTc (τ := τ) (main (F := F))) ⟨m, fun _ => 0, ρ⟩ (fun r => ∀ c : Dev nD,
      r.2.mem ((c.tc : Thread nD τ).loc main_v0) = (dat1 (E2 m ρ) c).arrAt 2 cfg1.N
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v0 (by decide))).trans (W3_main_v0 m ρ c),
       (h c _ (mem_uc main_arg0 (by decide))).trans (W3_main_arg0 m ρ c)⟩)

end Cert.Kernel.Hand

end
-- ==== Proof.KI_R0Run.lean ====
import proofs.«178488_j21827023798275_2_alg».proof.Proof.Gen.KernelIdeal.Launch
import proofs.«178488_j21827023798275_2_alg».proof.Proof.Gen.KernelIdeal.Skeleton
import proofs.«178488_j21827023798275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (column sums of squares), its body case by case.

The grid is 2 column halves × 16 row blocks, a point `t` being column half `t / 16`, row block `t % 16`. At the first row
block of a half the body zeroes its accumulator; at every row block it adds the block's column sums of squares to it; at
the last row block it copies the accumulator into the output block. So there are three control cases: first (A), middle
(B), last (C). Everything is stated at a PARAMETER `V`, the buffer contents the region is entered with. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- "This is the first row block": the body's first branch condition, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last row block": the body's second branch condition. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The input window is never idle; the output window is idle, and not written back, except at a last row block. -/
theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-- One staging buffer of the output window, through which its contents are stated. -/
abbrev VO0_1 : View sig .tc .vmem S1x1024 .f32 := (Memref.whole cc0_stg1_0 : Memref sig .tc .vmem S1x1024 .f32).view
/-- Each window's current staging buffer at point `t`, as the pipeline passes it, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1x1024 .f32 := Memref.whole cc0_scratch0
abbrev VS0_0 : View sig .tc .vmem S1x1024 .f32 := scM0_0.view

/-- The scoped buffers that are neither a staging buffer of this kernel nor its accumulator (the other kernel's staging
    buffers), each whole at some contents: they ride through this region untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region beside its windows: the accumulator at some contents, the other scoped buffers,
    the generator register. -/
theorem PhiA0_eq (c : Dev nD) :
    (Pipeline.ΦA spec0 c : sProp 𝕄)
      = iprop(iprop((∃ d, owns (c : Thread nD τ) scM0_0 fullShare d) ∗ other0 c) ∗ (∃ r, prngReg c r)) := by
  unfold Pipeline.ΦA other0; rw [scopedRest0_eq]; simp only [scM0_0, owns_whole]; try rfl

set_option maxHeartbeats 1000000 in
/-- CASE A (first row block): the accumulator, found at anything, ends with the pieces `LS0`; the output buffer is handed
    back untouched. The pieces are found by running the body. -/
noncomputable def kernelRun0_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S2048x1024 .f32) :
    Σ' (L1 : List (View.Piece (Elt F) S1x1024 .f32)), { LS0 : List (View.Piece (Elt F) S1x1024 .f32) //
      ∀ (xi1 : Vec F S1x1024 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- CASE B (a middle row block): the accumulator, found at `xs0`, ends with the pieces `LS0`; the output buffer is handed
    back untouched. -/
noncomputable def kernelRun0_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S2048x1024 .f32) (xs0 : Vec F S1x1024 .f32) :
    Σ' (L1 : List (View.Piece (Elt F) S1x1024 .f32)), { LS0 : List (View.Piece (Elt F) S1x1024 .f32) //
      ∀ (xi1 : Vec F S1x1024 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- CASE C (last row block): the accumulator, found at `xs0`, ends with the pieces `LS0`, and the output buffer, found at
    anything, with the pieces `L1`. -/
noncomputable def kernelRun0_C (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) :
    Σ' (L1 : List (View.Piece (Elt F) S1x1024 .f32)), { LS0 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨?_, ?_, fun E K => ?run⟩
  case run =>
    simp only [cc0__sumsq_kernel_eq_skeleton]; unfold cc0__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI_R0.lean ====
import proofs.«178488_j21827023798275_2_alg».proof.Proof.Gen.KernelIdeal.Launch
import proofs.«178488_j21827023798275_2_alg».proof.Proof.Gen.KernelIdeal.Skeleton
import proofs.«178488_j21827023798275_2_alg».proof.Proof.Gen.KernelIdeal.Points
import proofs.«178488_j21827023798275_2_alg».proof.Proof.KI_R0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (column sums of squares): what its accumulator and its output block hold point by point, the
    proof data and the body obligation. Everything at a PARAMETER `V`, the buffer contents the region is entered with. -/

variable (V : (c : Dev nD) → (b : Ref sig .tc) → Buf (Elt F) ((c : Thread nD τ).loc b))

/-- Case A stores nothing into the output block: a placeholder nothing consults. -/
def out0_A_1 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S2048x1024 .f32) : Vec F S1x1024 .f32 :=
  VO0_1.read (Elt F) (VO0_1.writes (Elt F) VO0_1.junk (kernelRun0_A c i arg2 harg2 arg3 harg3 arg4 harg4 hc0 hc1 x0).1)

/-- Case A's stores into the accumulator cover it. -/
theorem scover0_A_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S2048x1024 .f32) (y : S1x1024.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x1024.size (by sl_kernel_rfl) y

/-- What case A leaves in the accumulator. -/
def sout0_A_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S2048x1024 .f32) : Vec F S1x1024 .f32 :=
  VS0_0.read (Elt F) (VS0_0.writes (Elt F) VS0_0.junk (kernelRun0_A c i arg2 harg2 arg3 harg3 arg4 harg4 hc0 hc1 x0).2.1)

/-- Case B stores nothing into the output block: a placeholder nothing consults. -/
def out0_B_1 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S2048x1024 .f32) (xs0 : Vec F S1x1024 .f32) : Vec F S1x1024 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S2048x1024 .f32) (xs0 : Vec F S1x1024 .f32) (y : S1x1024.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x1024.size (by sl_kernel_rfl) y

/-- What case B leaves in the accumulator. -/
def sout0_B_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S2048x1024 .f32) (xs0 : Vec F S1x1024 .f32) : Vec F S1x1024 .f32 :=
  VS0_0.read (Elt F) (VS0_0.writes (Elt F) VS0_0.junk (kernelRun0_B c i arg2 harg2 arg3 harg3 arg4 harg4 hc0 hc1 x0 xs0).2.1)

/-- Case C's store into the output block covers it. -/
theorem cover0_C_1 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) (y : S1x1024.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1024.size (by sl_kernel_rfl) y

/-- What case C leaves in the output block. -/
def out0_C_1 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) : Vec F S1x1024 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) (y : S1x1024.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1024.size (by sl_kernel_rfl) y

/-- What case C leaves in the accumulator. -/
def sout0_C_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S2048x1024 .f32) (xs0 : Vec F S1x1024 .f32) : Vec F S1x1024 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- THE ACCUMULATION: after the body at position `n`, the pair (output block's buffer, accumulator): the case the position
    is in, run on the point's input block and — but at a first row block — on the accumulator the point before left. -/
def outsAt0 (c : Dev nD) : (n : ℕ) → n < cfg0.N → Vec F S1x1024 .f32 × Vec F S1x1024 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 16 = 0 then
      if h1 : (n + 1) % 16 = 15 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left in it, the other scoped buffers and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ other0 c) ∗ (∃ r, prngReg c r)) := by
  cases n with
  | zero => exact absurd rfl hz
  | succ n => rfl

/-- The proof data of the reduction pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the position's residue mod 16 says which case it is in; the invariant hands the body the
    accumulator at what the point before left (at anything at the very first point) and takes it back at this point's
    contents; the other scoped buffers, the generator register and the core's debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _)
            iexact Hoth
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.KI_R1.lean ====
import proofs.«178488_j21827023798275_2_alg».proof.Proof.Gen.KernelIdeal.Launch
import proofs.«178488_j21827023798275_2_alg».proof.Proof.Gen.KernelIdeal.Skeleton
import proofs.«178488_j21827023798275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the scaling): every point multiplies a block of 1024 rows by the scale row.

Everything is stated at a PARAMETER `V`, the buffer contents the region is entered with. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale row's staging buffer holds the row at every point, although it is fetched at the first only: its block
    index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x2048 := Rect.unit (s := S1024x2048) ![0, 0] S1024x2048.size inb_S1024x2048_S1024x2048_0_0
abbrev r1_1 : Rect S1x2048 := Rect.unit (s := S1x2048) ![0, 0] S1x2048.size inb_S1x2048_S1x2048_0_0

/-- What the body leaves in the output block: its one whole-block store, of the product of the row block with the
    scale row broadcast down the rows. -/
def out1_2 (x0 : Vec F S1024x2048 .f32) (x1 : Vec F S1x2048 .f32) : Vec F S1024x2048 .f32 :=
  View.canon [⟨r1_0, k1_pay1 (View.ld x0 r1_0) (View.ld x1 r1_1)⟩]

/-- The one store covers the block. -/
theorem cover1_2 (p0 : Vec F S1024x2048 .f32) (y : S1024x2048.Idx) :
    ∃ pc ∈ ([⟨r1_0, p0⟩] : List (View.Piece (Elt F) S1024x2048 .f32)), y ∈ pc.1.set :=
  View.cover_of_tiled [⟨r1_0, p0⟩] S1024x2048.size (by rfl) y

set_option maxHeartbeats 1000000 in
/-- The body on whole staging buffers: the two inputs are handed back as they were, the output holds `out1_2`. -/
theorem sound_kernel1 (c : Dev nD) (E : Set ℕ) (i : grid1.Coords) (arg1 : Memref sig .tc .vmem S1024x2048 .f32) (harg1 : arg1.IsWhole)
    (arg2 : Memref sig .tc .vmem S1x2048 .f32) (harg2 : arg2.IsWhole) (arg3 : Memref sig .tc .vmem S1024x2048 .f32) (harg3 : arg3.IsWhole)
    (x0 : Vec F S1024x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the scaling pipeline on core `c`: the arrays as the region finds them; after the body each input's
    buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Run.lean ====
import proofs.«178488_j21827023798275_2_alg».proof.Proof.Gen.KernelIdeal.Launch
import proofs.«178488_j21827023798275_2_alg».proof.Proof.Gen.KernelIdeal.Skeleton
import proofs.«178488_j21827023798275_2_alg».proof.Proof.Gen.KernelIdeal.Points
import proofs.«178488_j21827023798275_2_alg».proof.Proof.KI_R0
import proofs.«178488_j21827023798275_2_alg».proof.Proof.KI_R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main is the reduction kernel, twenty host operations, the scaling kernel.

The buffer contents at each boundary are a fold from the launch memory: a kernel region leaves its arrays at what its
write-backs leave and every other buffer as entered; the host stretch applies its operations. The final state is read
against the last boundary's contents. -/

variable (m : (ℓ : Loc nD τ sig) → Buf (Elt F) ℓ) (ρ : Dev nD → PrngReg)

/-- Core `c`'s buffers at launch (the reduction kernel's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
/-- At the reduction kernel's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the host operations (the scaling kernel's entry). -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
/-- At the scaling kernel's exit. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- No host operation writes the argument. -/
theorem W2_main_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument ends as launched: it is an input window of both kernels and no host operation writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (E2 m ρ) c).arrAt_in 0 rfl _).trans (A_eq1 (E2 m ρ) c 0))
    _ = W1 m ρ c (Proc.devRef .tc main_arg0) := W2_main_arg0 m ρ c
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

/-- The result buffer ends at what the scaling kernel's write-backs leave. -/
theorem W3_main_v0 (c : Dev nD) : W3 m ρ c (Proc.devRef .tc main_v0) = (dat1 (E2 m ρ) c).arrAt 2 cfg1.N :=
  W3_arr m ρ c 2

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- The reduction kernel as a segment: entered from every unscoped buffer at the launch contents, left at `W1`. Its
    invariant takes the generator register and the scoped rest in and gives them back, the accumulator's last contents
    forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (E0 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling kernel as a segment: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final state has the result buffer at what the scaling kernel's write-backs leave and the argument as launched. -/
theorem run_all : θ_run defs (onTc (τ := τ) (main (F := F))) ⟨m, fun _ => 0, ρ⟩ (fun r => ∀ c : Dev nD,
      r.2.mem ((c.tc : Thread nD τ).loc main_v0) = (dat1 (E2 m ρ) c).arrAt 2 cfg1.N
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v0 (by decide))).trans (W3_main_v0 m ρ c),
       (h c _ (mem_uc main_arg0 (by decide))).trans (W3_main_arg0 m ρ c)⟩)

end Cert.KernelIdeal.Hand

end
-- ==== Proof.KI_V0a.lean ====
import Idealize.ShloMosaic.Lib.ValueIdx
import proofs.«178488_j21827023798275_2_alg».proof.Proof.KI_R0
import Idealize.ShloMosaic.Lib.Pipeline.Value
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)

/-! # What each case of the reduction kernel's body leaves, as values.

Whatever the case, the accumulator ends at `k0_pay2 x acc` — the accumulator it found plus the column sums of squares of the
input block `x` — where at a first row block the accumulator it "found" is the zero row `k0_pay1` it has just stored; and at a
last row block the output block receives a copy of that. -/

variable {F : FTy → Type} [FloatOps F]

theorem hz : (![0, 0] : Fin 2 → Nat) = fun _ => 0 := funext fun a => by fin_cases a <;> rfl

/-- A middle row block: the accumulator `xs` becomes `k0_pay2 x xs`. -/
theorem sout_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i) (x : Vec F S2048x1024 .f32) (xs : Vec F S1x1024 .f32) :
    sout0_B_0 c i arg2 harg2 arg3 harg3 arg4 harg4 hc0 hc1 x xs = k0_pay2 x xs := by
  unfold sout0_B_0
  rw [View.read_writes_eq_canon _ _ _ (scover0_B_0 c i arg2 harg2 arg3 harg3 arg4 harg4 hc0 hc1 x xs)]
  unfold kernelRun0_B
  dsimp only
  rw [View.canon_unit_zero hz]
  simp only [View.readAt_eq_ld, harg2.read_unread, harg4.read_unread, View.ld_unit_zero (S := S2048x1024) hz, View.ld_unit_zero (S := S1x1024) hz]

/-- A first row block: the accumulator is zeroed, read back, and becomes `k0_pay2 x 0`. -/
theorem sout_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i) (x : Vec F S2048x1024 .f32) :
    sout0_A_0 c i arg2 harg2 arg3 harg3 arg4 harg4 hc0 hc1 x = k0_pay2 x k0_pay1 := by
  unfold sout0_A_0
  rw [View.read_writes_eq_canon _ _ _ (scover0_A_0 c i arg2 harg2 arg3 harg3 arg4 harg4 hc0 hc1 x)]
  unfold kernelRun0_A
  dsimp only
  sl_unfold_words
  rw [View.canon_cons_unit_zero (S := S1x1024) hz, View.readCov_unit_zero (S := S1x1024) _ hz]
  simp only [View.readAt_eq_ld, harg2.read_unread, View.ld_unit_zero (S := S2048x1024) hz]

/-- A last row block: the accumulator `xs` becomes `k0_pay2 x xs`, -/
theorem sout_C (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x : Vec F S2048x1024 .f32) (xs : Vec F S1x1024 .f32) :
    sout0_C_0 c i arg2 harg2 arg3 harg3 arg4 harg4 hc0 hc1 x xs = k0_pay2 x xs := by
  unfold sout0_C_0
  rw [View.read_writes_eq_canon _ _ _ (scover0_C_0 c i arg2 harg2 arg3 harg3 arg4 harg4 hc0 hc1 x xs)]
  unfold kernelRun0_C
  dsimp only
  sl_unfold_words
  rw [View.canon_unit_zero hz]
  simp only [View.readAt_eq_ld, harg2.read_unread, harg4.read_unread, View.ld_unit_zero (S := S2048x1024) hz, View.ld_unit_zero (S := S1x1024) hz]

/-- and the output block receives the same row. -/
theorem out_C (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x : Vec F S2048x1024 .f32) (xs : Vec F S1x1024 .f32) :
    out0_C_1 c i arg2 harg2 arg3 harg3 arg4 harg4 hc0 hc1 x xs = k0_pay2 x xs := by
  unfold out0_C_1
  rw [View.read_writes_eq_canon _ _ _ (cover0_C_1 c i arg2 harg2 arg3 harg3 arg4 harg4 hc0 hc1 x xs)]
  unfold kernelRun0_C
  dsimp only
  sl_unfold_words
  rw [View.canon_unit_zero hz, View.readCov_unit_zero (S := S1x1024) _ hz]
  simp only [View.readAt_eq_ld, harg2.read_unread, harg4.read_unread, View.ld_unit_zero (S := S2048x1024) hz, View.ld_unit_zero (S := S1x1024) hz]

end Cert.KernelIdeal.HandV

end
-- ==== Proof.Spec.lean ====
/-
  The mathematics both programs compute, stated once over the argument array `P : [32768, 2048]` of extended reals.

  Row `b` of `P` is one sample: its first 1024 columns are the real parts and its last 1024 the imaginary parts of a
  64 × 16 complex matrix laid out row-major (antenna `a`, user `k` at column `16 a + k`, resp. `1024 + 16 a + k`).
  The ENERGY of antenna `a` is the sum over all samples and all users of |entry|² — here written column by column:
  `colsq P c` is column `c`'s sum of squares over the batch, and antenna `a` owns the 16 columns `lo a k` and the 16 columns
  `hi a k`. Every entry is scaled by `sqrt (1 / energy)` of the antenna its column belongs to (`ant`).
-/
import Idealize.ShloMosaic.PureOps.Ideal
import Idealize.ShloMosaic.Lib.ValueIdx

noncomputable section

namespace Cert.Spec

open Idealize.ShloMosaic Idealize.ShloMosaic.ValueIdx

/-- The argument's shape. -/
abbrev SP : Shape := ⟨2, ![32768, 2048]⟩

/-- Column `c`'s sum of squares over the batch. -/
def colsq (P : SP.Idx → EReal) (c : Fin 2048) : EReal := ∑ b : Fin 32768, P (ix2 b c) * P (ix2 b c)

/-- The column holding the real part of antenna `a`, user `k`. -/
def lo (a : Fin 64) (k : Fin 16) : Fin 2048 := ⟨16 * a.val + k.val, by omega⟩
/-- The column holding the imaginary part of antenna `a`, user `k`. -/
def hi (a : Fin 64) (k : Fin 16) : Fin 2048 := ⟨1024 + 16 * a.val + k.val, by omega⟩

/-- Antenna `a`'s energy: its real columns' sums of squares plus its imaginary columns'. -/
def energy (P : SP.Idx → EReal) (a : Fin 64) : EReal :=
  (∑ k : Fin 16, colsq P (lo a k)) + ∑ k : Fin 16, colsq P (hi a k)

/-- The scale of an antenna of energy `e`: `sqrt (1 / e)`, the literal one kept as its word. -/
def scaleOf (e : EReal) : EReal := Ideal.sqrt (Ideal.div (Ideal.ofBits .f32 0x3F800000#32) e)

/-- The antenna a column belongs to. -/
def ant (c : Fin 2048) : Fin 64 := ⟨(c.val % 1024) / 16, by omega⟩

/-- The result: every entry times its antenna's scale. -/
def G (P : SP.Idx → EReal) : SP.Idx → EReal := fun i => P i * scaleOf (energy P (ant (i 1)))

end Cert.Spec

end
-- ==== Proof.KI_V0b.lean ====
import Idealize.ShloMosaic.Lib.ValueIdx
import proofs.«178488_j21827023798275_2_alg».proof.Proof.KI_V0a
import proofs.«178488_j21827023798275_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)

/-! # The reduction kernel's arithmetic on the extended reals, and the bookkeeping of partial column sums.

At a column `col` the body's row is: the accumulator found, plus the sum over the block's 2048 rows of the squared entries.
Partial sums over the batch are kept as sums over `Finset.range`, the column's squares extended by zero beyond the batch,
so that consecutive row blocks join by `Finset.sum_range_add`. -/

/-- The zero row the first row block stores. -/
theorem pay1_apply (j : S1x1024.Idx) : (k0_pay1 (F := Ideal)) j = 0 := by
  unfold k0_pay1
  rw [shapeCast_self]
  exact Ideal.ofBits_zero_f32

/-- A lane sum down the 2048 rows of a block, from the zero word, read at a column. -/
theorem colsum_apply (v : FVec Ideal S2048x1024 .f32) (col : Fin 1024) :
    multiReduction (F := Ideal) .add [0] S1024 v 0x00000000#32 reduces_S2048x1024_S1024 (.inl rfl) rfl (ix1 col)
      = ∑ r : Fin 2048, v (ix2 r col) := by
  refine (Ideal.multiReduction_add_single v 0x00000000#32 reduces_S2048x1024_S1024 (.inl rfl) rfl (ix1 col)).trans ?_
  show (∑ k : Fin 2048, v (reduces_S2048x1024_S1024.lift (ix1 col) k)) = ∑ r : Fin 2048, v (ix2 r col)
  refine Finset.sum_congr rfl fun k _ => congrArg v ?_
  funext a
  match a with
  | ⟨0, _⟩ => rfl
  | ⟨1, _⟩ => rfl

/-- The body's row at a column: the accumulator found plus the block's column sum of squares. -/
theorem pay2_apply (x : Vec Ideal S2048x1024 .f32) (xs : Vec Ideal S1x1024 .f32) (col : Fin 1024) :
    k0_pay2 x xs (ix2 (0 : Fin 1) col) = xs (ix2 (0 : Fin 1) col) + ∑ r : Fin 2048, x (ix2 r col) * x (ix2 r col) := by
  unfold k0_pay2
  rw [shapeCast_self]
  show xs (ix2 (0 : Fin 1) col) + shapeCast S1x1024 (multiReduction (F := Ideal) .add [0] S1024 (mulf x x) 0x00000000#32 reduces_S2048x1024_S1024 (.inl rfl) rfl) shapeCasts_S1024_S1x1024 (ix2 (0 : Fin 1) col) = _
  refine congrArg (xs (ix2 (0 : Fin 1) col) + ·) ?_
  refine (shapeCast_addUnit_apply ![1024] _ shapeCasts_S1024_S1x1024 (ix2 (0 : Fin 1) col)).trans ?_
  have e : (fun a : Fin 1 => (ix2 (0 : Fin 1) col) a.succ) = ix1 col := funext fun a => by
    match a with
    | ⟨0, _⟩ => rfl
  rw [e]
  exact colsum_apply (mulf x x) col

/-- Column `colG`'s squares, extended by zero beyond the batch. -/
def sqn (P : Cert.Spec.SP.Idx → EReal) (colG : Fin 2048) (b : ℕ) : EReal :=
  if hb : b < 32768 then P (ix2 ⟨b, hb⟩ colG) * P (ix2 ⟨b, hb⟩ colG) else 0

/-- The sum of column `colG`'s squares over the first `n` rows. -/
def part (P : Cert.Spec.SP.Idx → EReal) (colG : Fin 2048) (n : ℕ) : EReal := ∑ b ∈ Finset.range n, sqn P colG b

theorem part_zero (P : Cert.Spec.SP.Idx → EReal) (colG : Fin 2048) : part P colG 0 = 0 := by
  unfold part; rw [Finset.range_zero, Finset.sum_empty]

/-- Over the whole batch it is the column's sum of squares. -/
theorem part_full (P : Cert.Spec.SP.Idx → EReal) (colG : Fin 2048) : part P colG 32768 = Cert.Spec.colsq P colG := by
  unfold part Cert.Spec.colsq
  rw [Finset.sum_range]
  refine Finset.sum_congr rfl fun b _ => ?_
  unfold sqn
  rw [dif_pos b.isLt]

/-- Row block `j` extends the partial sum by its 2048 rows. -/
theorem part_step (P : Cert.Spec.SP.Idx → EReal) (colG : Fin 2048) (j : ℕ) (g : Fin 2048 → EReal)
    (hg : ∀ r : Fin 2048, g r = sqn P colG (2048 * j + r.val)) :
    part P colG (2048 * j) + ∑ r : Fin 2048, g r = part P colG (2048 * (j + 1)) := by
  unfold part
  rw [show 2048 * (j + 1) = 2048 * j + 2048 from by ring, Finset.sum_range_add, Finset.sum_range (fun x => sqn P colG (2048 * j + x))]
  exact congrArg _ (Finset.sum_congr rfl fun r _ => hg r)

end Cert.KernelIdeal.HandV

end
-- ==== Proof.KI_V0c.lean ====
import Idealize.ShloMosaic.Lib.ValueIdx
import proofs.«178488_j21827023798275_2_alg».proof.Proof.KI_V0b

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)

/-! # The reduction kernel's result array: column sums of squares over the whole batch.

Point `t` is column half `t / 16`, row block `t % 16`; its input block is rows `2048 (t % 16) …`, columns `1024 (t / 16) …` of the
argument. By induction on the point the accumulator after point `t` holds, at column `col`, the sum of the squares of
global column `1024 (t / 16) + col` over the first `2048 (t % 16 + 1)` rows. At a last row block that is the whole column,
it is copied to the output block, and the two output blocks written back (at points 15 and 31) tile the [1, 2048] result. -/

variable (V : (c : Dev nD) → (b : Ref sig .tc) → Buf (Elt Ideal) ((c : Thread nD τ).loc b))

/-- The argument as the region finds it, as an array of extended reals. -/
abbrev argP (c : Dev nD) : Cert.Spec.SP.Idx → EReal := V c main_arg0

/-- The printed index maps in closed form, decided over the grid. -/
theorem idx0_facts : ∀ t : Fin cfg0.N, win0_0.index t (0 : Fin 2) = t.val % 16 ∧ win0_0.index t (1 : Fin 2) = t.val / 16
    ∧ win0_1.index t (0 : Fin 2) = 0 ∧ win0_1.index t (1 : Fin 2) = t.val / 16 :=
  (by decide +kernel : ∀ t : Fin grid0.N, _)

/-- The input block at point `t` read at (r, col) is the argument at row `2048 (t % 16) + r`, column `1024 (t / 16) + col`. -/
theorem iblk0_apply (c : Dev nD) (t : Fin cfg0.N) (r : Fin 2048) (col : Fin 1024)
    (hr : 2048 * (t.val % 16) + r.val < 32768) (hc : 1024 * (t.val / 16) + col.val < 2048) :
    (iblk0 V c 0 t : Vec Ideal S2048x1024 .f32) (ix2 r col)
      = argP V c (ix2 ⟨2048 * (t.val % 16) + r.val, hr⟩ ⟨1024 * (t.val / 16) + col.val, hc⟩) := by
  obtain ⟨e0, e1, -, -⟩ := idx0_facts t
  unfold iblk0
  rw [View.read_apply]
  show V c main_arg0 _ = V c main_arg0 _
  refine congrArg (V c main_arg0) ?_
  funext a
  apply Fin.ext
  match a with
  | ⟨0, _⟩ => show win0_0.index t (0 : Fin 2) * 2048 + 1 * r.val = 2048 * (t.val % 16) + r.val; rw [e0]; omega
  | ⟨1, _⟩ => show win0_0.index t (1 : Fin 2) * 1024 + 1 * col.val = 1024 * (t.val / 16) + col.val; rw [e1]; omega

/-- One point's step, over a block `x` known entry by entry: if the accumulator found holds the column's partial sum over
    the rows before row block `j`, the body's row holds the partial sum through row block `j`. -/
theorem pay2_step (P : Cert.Spec.SP.Idx → EReal) (colG : Fin 2048) (j : ℕ) (x : Vec Ideal S2048x1024 .f32)
    (xs : Vec Ideal S1x1024 .f32) (col : Fin 1024)
    (hx : ∀ (r : Fin 2048) (hr : 2048 * j + r.val < 32768), x (ix2 r col) = P (ix2 ⟨2048 * j + r.val, hr⟩ colG))
    (hj : j < 16)
    (hxs : xs (ix2 (0 : Fin 1) col) = part P colG (2048 * j)) :
    k0_pay2 x xs (ix2 (0 : Fin 1) col) = part P colG (2048 * (j + 1)) := by
  rw [pay2_apply, hxs]
  refine part_step P colG j _ fun r => ?_
  have hr : 2048 * j + r.val < 32768 := by have := r.isLt; omega
  show x (ix2 r col) * x (ix2 r col) = sqn P colG (2048 * j + r.val)
  rw [hx r hr]
  unfold sqn
  rw [dif_pos hr]

/-- The same at point `t`'s input block. -/
theorem pay2_acc (c : Dev nD) (t : Fin cfg0.N) (xs : Vec Ideal S1x1024 .f32) (col : Fin 1024)
    (hcol : 1024 * (t.val / 16) + col.val < 2048)
    (hxs : xs (ix2 (0 : Fin 1) col) = part (argP V c) ⟨1024 * (t.val / 16) + col.val, hcol⟩ (2048 * (t.val % 16))) :
    k0_pay2 (iblk0 V c 0 t) xs (ix2 (0 : Fin 1) col)
      = part (argP V c) ⟨1024 * (t.val / 16) + col.val, hcol⟩ (2048 * (t.val % 16 + 1)) :=
  pay2_step (argP V c) _ (t.val % 16) (iblk0 V c 0 t) xs col (fun r hr => iblk0_apply V c t r col hr hcol) (Nat.mod_lt _ (by decide)) hxs

/-- THE INVARIANT: after point `n` the accumulator holds, at column `col`, the partial sum of global column
    `1024 (n / 16) + col` over the first `2048 (n % 16 + 1)` rows. -/
theorem acc_eq (c : Dev nD) : ∀ (n : ℕ) (hn : n < cfg0.N) (col : Fin 1024) (hcol : 1024 * (n / 16) + col.val < 2048),
    ((outsAt0 V c n hn).2 : Vec Ideal S1x1024 .f32) (ix2 (0 : Fin 1) col)
      = part (argP V c) ⟨1024 * (n / 16) + col.val, hcol⟩ (2048 * (n % 16 + 1)) := by
  intro n
  induction n with
  | zero =>
    intro hn col hcol
    rw [show outsAt0 V c 0 hn = _ from outsAt0_A V c ⟨0, hn⟩ rfl (by show ¬ (0 % 16 = 15); decide)]
    dsimp only
    rw [sout_A]
    exact pay2_acc V c ⟨0, hn⟩ _ col hcol ((pay1_apply _).trans (part_zero _ _).symm)
  | succ n ih =>
    intro hn col hcol
    have hN : n + 1 < 32 := lt_of_lt_of_eq hn (show cfg0.N = 32 from N_0)
    by_cases h0 : (n + 1) % 16 = 0
    · have h1 : ¬ (n + 1) % 16 = 15 := by omega
      rw [show outsAt0 V c (n + 1) hn = _ from outsAt0_A V c ⟨n + 1, hn⟩ h0 h1]
      dsimp only
      rw [sout_A]
      refine pay2_acc V c ⟨n + 1, hn⟩ _ col hcol ((pay1_apply _).trans ?_)
      show (0 : EReal) = part (argP V c) _ (2048 * ((n + 1) % 16))
      rw [h0]; exact (part_zero _ _).symm
    · have hq : n / 16 = (n + 1) / 16 := by omega
      have hr : n % 16 + 1 = (n + 1) % 16 := by omega
      have hcol' : 1024 * (n / 16) + col.val < 2048 := by omega
      have hprev : ((outsAt0 V c n (Nat.lt_of_succ_lt hn)).2 : Vec Ideal S1x1024 .f32) (ix2 (0 : Fin 1) col)
          = part (argP V c) ⟨1024 * ((n + 1) / 16) + col.val, hcol⟩ (2048 * ((n + 1) % 16)) := by
        rw [ih (Nat.lt_of_succ_lt hn) col hcol']
        have e : (⟨1024 * (n / 16) + col.val, hcol'⟩ : Fin 2048) = ⟨1024 * ((n + 1) / 16) + col.val, hcol⟩ := Fin.ext (by show 1024 * (n / 16) + col.val = 1024 * ((n + 1) / 16) + col.val; omega)
        rw [e, hr]
      by_cases h1 : (n + 1) % 16 = 15
      · rw [show outsAt0 V c (n + 1) hn = _ from outsAt0_C V c ⟨n + 1, hn⟩ h0 h1]
        dsimp only
        rw [sout_C]
        exact pay2_acc V c ⟨n + 1, hn⟩ _ col hcol hprev
      · rw [show outsAt0 V c (n + 1) hn = _ from outsAt0_B V c ⟨n + 1, hn⟩ h0 h1]
        dsimp only
        rw [sout_B]
        exact pay2_acc V c ⟨n + 1, hn⟩ _ col hcol hprev

/-- At a last row block the output block receives the whole column sums. -/
theorem out_val (c : Dev nD) (t : Fin cfg0.N) (ht : t.val % 16 = 15) (col : Fin 1024) (hcol : 1024 * (t.val / 16) + col.val < 2048) :
    ((outsAt0 V c t.val t.isLt).1 : Vec Ideal S1x1024 .f32) (ix2 (0 : Fin 1) col)
      = Cert.Spec.colsq (argP V c) ⟨1024 * (t.val / 16) + col.val, hcol⟩ := by
  have h0 : ¬ t.val % 16 = 0 := by omega
  have hpos : 0 < t.val := by omega
  have hq : (t.val - 1) / 16 = t.val / 16 := by omega
  have hr : (t.val - 1) % 16 + 1 = t.val % 16 := by omega
  have hcol' : 1024 * ((t.val - 1) / 16) + col.val < 2048 := by omega
  rw [outsAt0_C V c t h0 ht]
  dsimp only
  rw [out_C]
  refine (pay2_acc V c t _ col hcol ?_).trans ?_
  · rw [acc_eq V c (t.val - 1) _ col hcol']
    have e : (⟨1024 * ((t.val - 1) / 16) + col.val, hcol'⟩ : Fin 2048) = ⟨1024 * (t.val / 16) + col.val, hcol⟩ := Fin.ext (by show 1024 * ((t.val - 1) / 16) + col.val = 1024 * (t.val / 16) + col.val; omega)
    rw [e, hr]
  · rw [ht]; exact part_full _ _

theorem colsq_congr (P : Cert.Spec.SP.Idx → EReal) (a b : Fin 2048) (h : a.val = b.val) : Cert.Spec.colsq P a = Cert.Spec.colsq P b := by
  rw [Fin.ext h]

/-- The result of the reduction kernel: the [1, 2048] row of column sums of squares. -/
def colsums (c : Dev nD) : S1x2048.Idx → EReal := fun j => Cert.Spec.colsq (argP V c) ⟨(j 1).val, idx2_lt1 j⟩

theorem colsums_apply (c : Dev nD) (g : Fin 2048) : colsums V c (ix2 (0 : Fin 1) g) = Cert.Spec.colsq (argP V c) g := rfl

/-- A [1, 1024] row known entry by entry as a stretch of a [1, 2048] row, written back at point `t`, is the block of that row
    at `t`: the output block of point `t` is columns `1024 (t / 16) …`. -/
theorem cut_eq_read (t : Fin cfg0.N) (X : Vec Ideal S1x1024 .f32) (S : S1x2048.Idx → EReal)
    (h : ∀ (col : Fin 1024) (hcol : 1024 * (t.val / 16) + col.val < 2048),
      X (ix2 (0 : Fin 1) col) = S (ix2 (0 : Fin 1) ⟨1024 * (t.val / 16) + col.val, hcol⟩)) :
    (cfg0.win 1).cut (grid0.coords t) X = ((cfg0.win 1).blk t).view.read (Elt Ideal) S := by
  have hN : t.val < 32 := lt_of_lt_of_eq t.isLt (show cfg0.N = 32 from N_0)
  obtain ⟨-, -, e0, e1⟩ := idx0_facts t
  funext y
  obtain ⟨p, col, rfl⟩ : ∃ (p : Fin 1) (col : Fin 1024), y = ix2 p col := ⟨y 0, y 1, eq_ix2 y⟩
  obtain rfl : p = 0 := Subsingleton.elim _ _
  have hcol : 1024 * (t.val / 16) + col.val < 2048 := by have := col.isLt; omega
  show X (ix2 (0 : Fin 1) col) = S (((cfg0.win 1).blk t).view.emb (ix2 (0 : Fin 1) col))
  rw [h col hcol]
  refine congrArg S ?_
  funext a
  apply Fin.ext
  match a with
  | ⟨0, _⟩ => show 0 = win0_1.index t (0 : Fin 2) * 1 + 1 * 0; rw [e0]
  | ⟨1, _⟩ => show 1024 * (t.val / 16) + col.val = win0_1.index t (1 : Fin 2) * 1024 + 1 * col.val; rw [e1]; omega

/-- What a write-back (at a last row block) writes is its block of that row. -/
theorem flushed_eq0 (c : Dev nD) (t : Fin cfg0.N) (hf : (cfg0.win 1).flush t = true) :
    (dat0 V c).flushed 1 t = ((cfg0.win 1).blk t).view.read (Elt Ideal) (colsums V c) := by
  have ht : t.val % 16 = 15 := (flush0_1 t).mp hf
  show (cfg0.win 1).cut (grid0.coords t) ((dat0 V c).after 1 t) = _
  rw [after0_1]
  exact cut_eq_read t _ _ fun col hcol => (out_val V c t ht col hcol).trans (colsums_apply V c _).symm

/-- Every entry of the row lies in the block written back at the last row block of its column half. -/
theorem cover0 (i : S1x2048.Idx) : ∃ t : Fin cfg0.N, (cfg0.win 1).flush t = true ∧ i ∈ ((cfg0.win 1).blk t).view.set := by
  have hi0 : (i 0).val < 1 := idx2_lt0 i
  have hi1 : (i 1).val < 2048 := idx2_lt1 i
  have hN : cfg0.N = 32 := N_0
  let t : Fin cfg0.N := ⟨16 * ((i 1).val / 1024) + 15, by omega⟩
  have htv : t.val = 16 * ((i 1).val / 1024) + 15 := rfl
  obtain ⟨-, -, e0, e1⟩ := idx0_facts t
  refine ⟨t, (flush0_1 t).mpr (by omega), ?_⟩
  show i ∈ ((View.whole main_call0_v0).slice (win0_1.rect t)).set
  rw [View.set_slice_whole, Rect.mem_set_unit]
  intro a
  match a with
  | ⟨0, _⟩ => show win0_1.index t (0 : Fin 2) * 1 ≤ (i 0).val ∧ (i 0).val < win0_1.index t (0 : Fin 2) * 1 + 1; rw [e0]; omega
  | ⟨1, _⟩ => show win0_1.index t (1 : Fin 2) * 1024 ≤ (i 1).val ∧ (i 1).val < win0_1.index t (1 : Fin 2) * 1024 + 1024; rw [e1]; omega

/-- So the result array of the reduction kernel ends holding the column sums of squares. -/
theorem final0 (c : Dev nD) : (dat0 V c).arrAt 1 cfg0.N = colsums V c :=
  (dat0 V c).arrAt_eq_of_cover 1 (colsums V c) (flushed_eq0 V c) (cover0)

end Cert.KernelIdeal.HandV

end
-- ==== Proof.KI_V1.lean ====
import Idealize.ShloMosaic.Lib.ValueIdx
import proofs.«178488_j21827023798275_2_alg».proof.Proof.KI_R1
import proofs.«178488_j21827023798275_2_alg».proof.Proof.Spec
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)

/-! # The scaling kernel's result array: every entry of the argument times the scale row's entry of its column.

Point `t` handles rows `1024 t …` of the argument, whole rows; the scale row is one block for every point. The output blocks
tile the [32768, 2048] result. -/

variable (V : (c : Dev nD) → (b : Ref sig .tc) → Buf (Elt Ideal) ((c : Thread nD τ).loc b))

theorem hz1 : (![0, 0] : Fin 2 → Nat) = fun _ => 0 := funext fun a => by fin_cases a <;> rfl

/-- The printed index maps in closed form, decided over the grid. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's product at an entry: the row block's entry times the scale row's entry of the same column. -/
theorem pay_scale_apply (x0 : Vec Ideal S1024x2048 .f32) (x1 : Vec Ideal S1x2048 .f32) (r : Fin 1024) (col : Fin 2048) :
    k1_pay1 x0 x1 (ix2 r col) = x0 (ix2 r col) * x1 (ix2 (0 : Fin 1) col) := by
  unfold k1_pay1
  rw [shapeCast_self]
  show x0 (ix2 r col) * broadcastTo S1024x2048 x1 broadcasts_S1x2048_S1024x2048 (ix2 r col) = _
  refine congrArg (x0 (ix2 r col) * ·) ?_
  exact broadcastTo_apply x1 broadcasts_S1x2048_S1024x2048 (ix2 r col) (ix2 (0 : Fin 1) col) (fun a => by
    match a with
    | ⟨0, _⟩ => rfl
    | ⟨1, _⟩ => rfl)

/-- An array scaled column by column by a [1, 2048] row. -/
def scaled (P : Cert.Spec.SP.Idx → EReal) (sr : S1x2048.Idx → EReal) : Cert.Spec.SP.Idx → EReal :=
  fun i => P i * sr (ix2 (0 : Fin 1) ⟨(i 1).val, idx2_lt1 i⟩)

/-- What point `t` writes back is its block of the scaled array. -/
theorem flushed_eq1 (c : Dev nD) (t : Fin cfg1.N) :
    (dat1 V c).flushed 2 t = ((cfg1.win 2).blk t).view.read (Elt Ideal) (scaled (V c main_arg0) (V c main_call0_v17)) := by
  obtain ⟨a0, a1, b0, b1, c0, c1⟩ := idx1_facts t
  show (cfg1.win 2).cut (grid1.coords t) ((dat1 V c).after 2 t) = _
  rw [after1_2]
  unfold out1_2
  rw [View.canon_unit_zero hz1]
  simp only [View.ld_unit_zero (S := S1024x2048) hz1, View.ld_unit_zero (S := S1x2048) hz1]
  funext y
  obtain ⟨r, col, rfl⟩ : ∃ (r : Fin 1024) (col : Fin 2048), y = ix2 r col := ⟨y 0, y 1, eq_ix2 y⟩
  show k1_pay1 (iblk1 V c 0 t) (iblk1 V c 1 t) (ix2 r col) = scaled (V c main_arg0) (V c main_call0_v17) (((cfg1.win 2).blk t).view.emb (ix2 r col))
  rw [pay_scale_apply]
  unfold scaled
  have e0 : (iblk1 V c 0 t : Vec Ideal S1024x2048 .f32) (ix2 r col) = V c main_arg0 (((cfg1.win 2).blk t).view.emb (ix2 r col)) := by
    unfold iblk1
    rw [View.read_apply]
    show V c main_arg0 _ = V c main_arg0 _
    refine congrArg (V c main_arg0) ?_
    funext a
    apply Fin.ext
    match a with
    | ⟨0, _⟩ => show win1_0.index t (0 : Fin 2) * 1024 + 1 * r.val = win1_2.index t (0 : Fin 2) * 1024 + 1 * r.val; rw [a0, c0]
    | ⟨1, _⟩ => show win1_0.index t (1 : Fin 2) * 2048 + 1 * col.val = win1_2.index t (1 : Fin 2) * 2048 + 1 * col.val; rw [a1, c1]
  have e1 : (iblk1 V c 1 t : Vec Ideal S1x2048 .f32) (ix2 (0 : Fin 1) col)
      = V c main_call0_v17 (ix2 (0 : Fin 1) ⟨((((cfg1.win 2).blk t).view.emb (ix2 r col)) 1).val, idx2_lt1 _⟩) := by
    unfold iblk1
    rw [View.read_apply]
    show V c main_call0_v17 _ = V c main_call0_v17 _
    refine congrArg (V c main_call0_v17) ?_
    funext a
    apply Fin.ext
    match a with
    | ⟨0, _⟩ => show win1_1.index t (0 : Fin 2) * 1 + 1 * 0 = 0; rw [b0]
    | ⟨1, _⟩ => show win1_1.index t (1 : Fin 2) * 2048 + 1 * col.val = win1_2.index t (1 : Fin 2) * 2048 + 1 * col.val; rw [b1, c1]
  rw [e0, e1]

/-- Every entry of the result lies in the block of its row's point. -/
theorem cover1 (i : Cert.Spec.SP.Idx) : ∃ t : Fin cfg1.N, (cfg1.win 2).flush t = true ∧ i ∈ ((cfg1.win 2).blk t).view.set := by
  have hi0 : (i 0).val < 32768 := idx2_lt0 i
  have hi1 : (i 1).val < 2048 := idx2_lt1 i
  have hN : cfg1.N = 32 := N_1
  let t : Fin cfg1.N := ⟨(i 0).val / 1024, by omega⟩
  have htv : t.val = (i 0).val / 1024 := rfl
  obtain ⟨-, -, -, -, c0, c1⟩ := idx1_facts t
  refine ⟨t, flush1_2 t, ?_⟩
  show i ∈ ((View.whole main_v0).slice (win1_2.rect t)).set
  rw [View.set_slice_whole, Rect.mem_set_unit]
  intro a
  match a with
  | ⟨0, _⟩ => show win1_2.index t (0 : Fin 2) * 1024 ≤ (i 0).val ∧ (i 0).val < win1_2.index t (0 : Fin 2) * 1024 + 1024; rw [c0]; omega
  | ⟨1, _⟩ => show win1_2.index t (1 : Fin 2) * 2048 ≤ (i 1).val ∧ (i 1).val < win1_2.index t (1 : Fin 2) * 2048 + 2048; rw [c1]; omega

/-- So the result array of the scaling kernel ends holding the scaled argument. -/
theorem final1 (c : Dev nD) : (dat1 V c).arrAt 2 cfg1.N = scaled (V c main_arg0) (V c main_call0_v17) :=
  (dat1 V c).arrAt_eq_of_cover 2 (scaled (V c main_arg0) (V c main_call0_v17)) (fun t _ => flushed_eq1 V c t) (cover1)

end Cert.KernelIdeal.HandV

end
-- ==== Proof.LibConcatPair.lean ====
/-
  A concatenation of two arrays as a plain function of its two operands, and the reading of a stretch of host
  operations that goes on into those operands.

  The concatenation of arrays takes its operands as a list of pairs, each a shape with an array of that shape. What a
  buffer holds after a list of host operations is a fold over the list; at an operation's own result buffer it is the
  operation's function of its operands' contents, each read in turn from the operations before. When that function is a
  concatenation, the operands sit inside the list of pairs, where a pass of rewriting does not go. Written as a function
  `concat2` of the two arrays (the same value, by definition), the operands are ordinary arguments and the pass reads
  them like any others.
-/
import Idealize.ShloMosaic.Lib.StableHlo.Run

noncomputable section

namespace Idealize.ShloMosaic.StableHlo

/-- The concatenation of two arrays along an axis, as a function of the two arrays. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A concatenation of a list of two pairs is `concat2` of the two arrays. -/
theorem concat2_fold {α : Type} (t : Shape) (a : Fin t.rank) (s₁ s₂ : Shape) (h : Shape.Concatenates [s₁, s₂] t a)
    (x : s₁.Idx → α) (y : s₂.Idx → α) :
    concatenate t a [⟨s₁, x⟩, ⟨s₂, y⟩] h = concat2 t a s₁ s₂ h x y := rfl

/-- The contents after two stretches of operations in a row: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a typed reference's own buffer type and back are the contents: the two moves are casts along the
    same equation between the types, one in each direction. -/
theorem TRef.ofBuf_toBuf {sig : RefSig} {Val : EltTy → Type} {T : BufTy} (x : TRef sig T) (v : T.Contents Val) :
    x.ofBuf (x.toBuf v) = v := by
  obtain ⟨r, h, hd, hu⟩ := x
  subst h
  rfl

/-- Open the fold of a stretch of host operations at a buffer in one pass: every operation's result at its own
    buffer, every other buffer passed through (the buffers' inequalities decided), a two-operand concatenation first
    written as `concat2` so that the pass goes on into its operands, round trips through a typed reference removed. -/
macro "host_read_pairs" : tactic =>
  `(tactic| (simp (disch := decide) only [↓ concat2_fold, TRef.ofBuf_toBuf, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.LibHostRowSum.lean ====
/-
  GENERAL LEMMA: the host's sum along the second axis of a rank-2 array — what `sum(x, axis=1)` is in a host program —
  read at an index given by coordinates.
  • `hostReduceAdd_axis1_apply`: on the extended reals, the sum-reduce of an `[a, b]` array along axis 1, at `i`, is the
    initial value's one element plus the sum over `k` of the entries `(i, k)` of row `i`.
-/
import Idealize.ShloMosaic.Lib.ValueIdx
import Idealize.ShloMosaic.PureOps.Ideal.Laws
import Idealize.ShloMosaic.PureOps.Reduce

noncomputable section

open scoped BigOperators

namespace Idealize.ShloMosaic.ValueIdx

open Idealize.ShloMosaic

/-- The host's sum along axis 1 of an `[a, b]` array of extended reals: at `i` it is the initial value plus the sum of
    row `i`. -/
theorem hostReduceAdd_axis1_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd x init h' hu (ix1 i) = init (Shape.Idx.first hu) + ∑ k : Fin b, x (ix2 i k) := by
  unfold Host.reduceAdd
  rw [Ideal.hostReduceAdd_def]
  refine (Ideal.hostReduceAdd_single h' h x _ (ix1 i)).trans ?_
  refine congrArg (fun s => init (Shape.Idx.first hu) + s) (Finset.sum_congr rfl fun k _ => congrArg x ?_)
  funext c
  match c with
  | ⟨0, _⟩ => exact Fin.ext rfl
  | ⟨1, _⟩ => exact Fin.ext rfl

end Idealize.ShloMosaic.ValueIdx

end
-- ==== Proof.HostMid.lean ====
/-
  The host operations between the two kernels of the idealized kernel program, read as mathematics.

  The first kernel leaves a 1 × 2048 row `w` (the column sums of squares). The host flattens it, takes its first and its
  last 1024 entries, views each as a 64 × 16 matrix (entry (a, k) at position 16 a + k), sums each matrix along its rows
  starting from zero, adds the two vectors of 64 sums, takes the square root of one over each sum, repeats each of the 64
  results across 16 columns, flattens that to 1024 entries, places two copies side by side and views the 2048 entries as
  a 1 × 2048 row again. So entry `c` of the row it leaves is `sqrt (1 / e)` where `e` is the sum of the 16 entries
  `16 a + k` and the 16 entries `1024 + 16 a + k` of `w`, for `a = (c mod 1024) / 16`. Sums of extended reals may be
  regrouped freely and `0 + x = x`; nothing else about the arithmetic is used.
-/
import proofs.«178488_j21827023798275_2_alg».proof.Proof.Gen.KernelIdeal.Launch
import proofs.«178488_j21827023798275_2_alg».proof.Proof.Spec
import proofs.«178488_j21827023798275_2_alg».proof.Proof.Gen.KernelIdeal.Regions
import proofs.«178488_j21827023798275_2_alg».proof.Proof.LibConcatPair
import proofs.«178488_j21827023798275_2_alg».proof.Proof.LibHostRowSum
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostMid

open Idealize.ShloMosaic Idealize.ShloMosaic.TcCoe Idealize.ShloMosaic.ValueIdx Cert.KernelIdeal Cert.KernelIdeal.Gen

/-! ## The stretch as a composition of array functions of the one buffer it reads -/

/-- The row of column sums, as a vector of length 2048. -/
def flat (w : S1x2048.Idx → EReal) : S2048.Idx → EReal := shapeCast S2048 w shapeCasts_S1x2048_S2048

/-- The real half's energies: the first 1024 entries as a 64 × 16 matrix, summed along its rows from the zero word. -/
def enLo (w : S1x2048.Idx → EReal) : S64.Idx → EReal :=
  Host.reduceAdd (F := Ideal) (shapeCast S64x16 (extractStridedSlice S1024 ![0] (flat w) slices_S2048_S1024_0) shapeCasts_S1024_S64x16)
    (constant (F := Ideal) S_ .f32 0x00000000#32) reducesTo_S64x16_S64_d1 h_S_

/-- The imaginary half's energies: the last 1024 entries likewise. -/
def enHi (w : S1x2048.Idx → EReal) : S64.Idx → EReal :=
  Host.reduceAdd (F := Ideal) (shapeCast S64x16 (extractStridedSlice S1024 ![1024] (flat w) slices_S2048_S1024_1024) shapeCasts_S1024_S64x16)
    (constant (F := Ideal) S_ .f32 0x00000000#32) reducesTo_S64x16_S64_d1 h_S_

/-- The 64 scales: the square root of one over the two energies' sum. -/
def scales (w : S1x2048.Idx → EReal) : S64.Idx → EReal :=
  Host.sqrt (F := Ideal) (Host.divf (F := Ideal) (broadcastInDim S64 ![] bcast_S_S64 (constant (F := Ideal) S_ .f32 0x3F800000#32)) (addf (enLo w) (enHi w)))

/-- One half of the scale row: every scale repeated across its 16 columns, flattened. -/
def half (w : S1x2048.Idx → EReal) : S1024.Idx → EReal :=
  shapeCast S1024 (broadcastInDim S64x16 ![0] bcast_S64_S64x16_0 (scales w)) shapeCasts_S64x16_S1024

/-- The scale row: the half twice, side by side, as a 1 × 2048 array. -/
def row (w : S1x2048.Idx → EReal) : S1x2048.Idx → EReal :=
  shapeCast S1x2048 (concatenate S2048 0 [⟨S1024, half w⟩, ⟨S1024, half w⟩] concatenates_S1024_S1024_S2048_d0) shapeCasts_S2048_S1x2048

/-- What the stretch leaves in its last buffer is `row` of what it found in the buffer it reads. -/
theorem after_v17 (W : Valuation τ sig (Elt Ideal)) :
    StableHlo.after (hostOps1 (F := Ideal)) W (Proc.devRef .tc main_call0_v17) = row (W (Proc.devRef .tc main_call0_v0)) := by
  host_read_pairs
  rfl

/-! ## Each layout operation read at an index given by literal coordinates -/

section Reads
variable {α : Type}

theorem flat_apply (w : S1x2048.Idx → EReal) (c : Fin 2048) : flat w (ix1 c) = w (ix2 (0 : Fin 1) c) :=
  shapeCast_1a_a_apply w _ c

/-- The first 1024 entries of a vector of length 2048. -/
theorem sliceLo_apply (x : S2048.Idx → α) (j : Fin 1024) :
    extractStridedSlice S1024 ![0] x slices_S2048_S1024_0 (ix1 j) = x (ix1 (⟨j.val, by omega⟩ : Fin 2048)) :=
  extractStridedSlice_apply _ x _ _ _ fun a => match a with
    | ⟨0, _⟩ => by show j.val = 0 + j.val; omega

/-- The last 1024 entries. -/
theorem sliceHi_apply (x : S2048.Idx → α) (j : Fin 1024) :
    extractStridedSlice S1024 ![1024] x slices_S2048_S1024_1024 (ix1 j) = x (ix1 (⟨1024 + j.val, by omega⟩ : Fin 2048)) :=
  extractStridedSlice_apply _ x _ _ _ fun a => match a with
    | ⟨0, _⟩ => by show 1024 + j.val = 1024 + j.val; rfl

/-- A vector of length 1024 as a 64 × 16 matrix, row-major: entry (a, k) is entry 16 a + k. -/
theorem mat_apply (y : S1024.Idx → α) (a : Fin 64) (k : Fin 16) :
    shapeCast S64x16 y shapeCasts_S1024_S64x16 (ix2 a k) = y (ix1 (⟨16 * a.val + k.val, by omega⟩ : Fin 1024)) :=
  shapeCast_apply y _ _ _ (by
    rw [Shape.rowMajor_val_two, Shape.rowMajor_val_one]
    show 16 * a.val + k.val = a.val * 16 + k.val
    omega)

/-- The 64 × 16 matrix flattened back: entry j is entry (j / 16, j mod 16). -/
theorem unmat_apply (y : S64x16.Idx → α) (j : Fin 1024) :
    shapeCast S1024 y shapeCasts_S64x16_S1024 (ix1 j)
      = y (ix2 (⟨j.val / 16, by omega⟩ : Fin 64) (⟨j.val % 16, by omega⟩ : Fin 16)) :=
  shapeCast_apply y _ _ _ (by
    rw [Shape.rowMajor_val_two, Shape.rowMajor_val_one]
    show j.val / 16 * 16 + j.val % 16 = j.val
    omega)

/-- A vector of length 64 laid along the rows of a 64 × 16 matrix: every entry of row a is entry a. -/
theorem cols_apply (x : S64.Idx → α) (a : Fin 64) (k : Fin 16) :
    broadcastInDim S64x16 ![0] bcast_S64_S64x16_0 x (ix2 a k) = x (ix1 a) :=
  broadcastInDim_apply _ _ x _ _ fun b => match b with
    | ⟨0, _⟩ => by
      show a.val = if (64 : ℕ) = 1 then 0 else a.val
      rw [if_neg (by decide)]

/-- Two vectors of length 1024 side by side, read in the first. -/
theorem pair_apply_left (x y : S1024.Idx → α) (c : Fin 2048) (hc : c.val < 1024) :
    concatenate S2048 0 [⟨S1024, x⟩, ⟨S1024, y⟩] concatenates_S1024_S1024_S2048_d0 (ix1 c) = x (ix1 (⟨c.val, hc⟩ : Fin 1024)) :=
  concatenate_pair_apply_left 0 x y _ (ix1 c) rfl _ fun b => match b with
    | ⟨0, _⟩ => rfl

/-- Two vectors of length 1024 side by side, read in the second. -/
theorem pair_apply_right (x y : S1024.Idx → α) (c : Fin 2048) (hc : 1024 ≤ c.val) :
    concatenate S2048 0 [⟨S1024, x⟩, ⟨S1024, y⟩] concatenates_S1024_S1024_S2048_d0 (ix1 c)
      = y (ix1 (⟨c.val - 1024, by omega⟩ : Fin 1024)) :=
  concatenate_pair_apply_right 0 x y _ (ix1 c) rfl rfl _
    (fun b => match b with
      | ⟨0, _⟩ => fun h => absurd rfl h)
    (by show c.val - 1024 + 1024 = c.val; omega)

end Reads

/-! ## The values -/

/-- The rows' sums are over all of the row: the shape relation the row-sum lemma asks for beside the program's own. -/
theorem reduces_rows : S64x16.Reduces [1] S64 := by decide

/-- The real half's energy of antenna `a`: the sum of the 16 entries `16 a + k` of the row. -/
theorem enLo_apply (w : S1x2048.Idx → EReal) (a : Fin 64) :
    enLo w (ix1 a) = ∑ k : Fin 16, w (ix2 (0 : Fin 1) (Cert.Spec.lo a k)) := by
  unfold enLo
  rw [hostReduceAdd_axis1_apply _ _ reducesTo_S64x16_S64_d1 reduces_rows h_S_ a, constant_apply, Ideal.ofBits_zero_f32, zero_add]
  refine Finset.sum_congr rfl fun k _ => ?_
  rw [mat_apply, sliceLo_apply, flat_apply]
  rfl

/-- The imaginary half's energy of antenna `a`: the sum of the 16 entries `1024 + 16 a + k`. -/
theorem enHi_apply (w : S1x2048.Idx → EReal) (a : Fin 64) :
    enHi w (ix1 a) = ∑ k : Fin 16, w (ix2 (0 : Fin 1) (Cert.Spec.hi a k)) := by
  unfold enHi
  rw [hostReduceAdd_axis1_apply _ _ reducesTo_S64x16_S64_d1 reduces_rows h_S_ a, constant_apply, Ideal.ofBits_zero_f32, zero_add]
  refine Finset.sum_congr rfl fun k _ => ?_
  rw [mat_apply, sliceHi_apply, flat_apply]
  refine congrArg (fun c : Fin 2048 => w (ix2 (0 : Fin 1) c)) (Fin.ext ?_)
  show 1024 + (16 * a.val + k.val) = 1024 + 16 * a.val + k.val
  omega

/-- Antenna `a`'s scale: the pointwise square root of one over the sum of the two energies. -/
theorem scales_apply (w : S1x2048.Idx → EReal) (a : Fin 64) :
    scales w (ix1 a) = Cert.Spec.scaleOf (enLo w (ix1 a) + enHi w (ix1 a)) := rfl

/-- Entry `j` of a half is the scale of antenna `j / 16`. -/
theorem half_apply (w : S1x2048.Idx → EReal) (j : Fin 1024) :
    half w (ix1 j) = scales w (ix1 (⟨j.val / 16, by omega⟩ : Fin 64)) := by
  unfold half
  rw [unmat_apply, cols_apply]

/-- Entry `c` of the scale row is the scale of column `c`'s antenna. -/
theorem row_apply (w : S1x2048.Idx → EReal) (c : Fin 2048) :
    row w (ix2 (0 : Fin 1) c) = scales w (ix1 (Cert.Spec.ant c)) := by
  unfold row
  rw [shapeCast_a_1a_apply]
  by_cases hc : c.val < 1024
  · rw [pair_apply_left _ _ c hc, half_apply]
    refine congrArg (fun a : Fin 64 => scales w (ix1 a)) (Fin.ext ?_)
    show c.val / 16 = c.val % 1024 / 16
    rw [Nat.mod_eq_of_lt hc]
  · rw [pair_apply_right _ _ c (by omega), half_apply]
    refine congrArg (fun a : Fin 64 => scales w (ix1 a)) (Fin.ext ?_)
    show (c.val - 1024) / 16 = c.val % 1024 / 16
    have := c.isLt
    omega

/-! ## The stretch between the two kernels -/

/-- After the host operations between the two kernels the scale row holds, at column `c`, the scale of the energy of
    `c`'s antenna: the sum of the 16 real columns' and of the 16 imaginary columns' entries of the row the stretch read. -/
theorem scale_row (W : Valuation τ sig (Elt Ideal)) (s : Fin 2048 → EReal)
    (hs : ∀ c : Fin 2048, (W (Proc.devRef .tc main_call0_v0) : S1x2048.Idx → EReal) (ix2 (0 : Fin 1) c) = s c) (c : Fin 2048) :
    (StableHlo.after (hostOps1 (F := Ideal)) W (Proc.devRef .tc main_call0_v17) : S1x2048.Idx → EReal) (ix2 (0 : Fin 1) c)
      = Cert.Spec.scaleOf ((∑ k : Fin 16, s (Cert.Spec.lo (Cert.Spec.ant c) k)) + ∑ k : Fin 16, s (Cert.Spec.hi (Cert.Spec.ant c) k)) := by
  rw [after_v17, row_apply, scales_apply, enLo_apply, enHi_apply]
  simp only [hs]

/-- The stretch writes none of the program's arguments. -/
theorem keeps_arg0 (W : Valuation τ sig (Elt Ideal)) :
    StableHlo.after (hostOps1 (F := Ideal)) W (Proc.devRef .tc main_arg0) = W (Proc.devRef .tc main_arg0) :=
  StableHlo.after_of_writes_sub hostOps1 W hostOps1_writes (by decide)

end Cert.KernelIdeal.HostMid

end
-- ==== Proof.KI_Val.lean ====
import Idealize.ShloMosaic.Lib.ValueIdx
import proofs.«178488_j21827023798275_2_alg».proof.Proof.KI_Run
import proofs.«178488_j21827023798275_2_alg».proof.Proof.KI_V0c
import proofs.«178488_j21827023798275_2_alg».proof.Proof.KI_V1
import proofs.«178488_j21827023798275_2_alg».proof.Proof.HostMid

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)

/-! # The idealized kernel program's result is the specification's function of the argument.

The reduction kernel leaves the column sums of squares in its result row; the host operations turn that row into the scale
row (each column's antenna's `sqrt (1 / energy)`); the scaling kernel multiplies the argument by it. -/

variable (m : (ℓ : Loc nD τ sig) → Buf (Elt Ideal) ℓ) (ρ : Dev nD → PrngReg)

/-- The argument reaches the scaling kernel as launched. -/
theorem E2_arg (c : Dev nD) : E2 m ρ c main_arg0 = m ((c : Thread nD τ).loc main_arg0) :=
  (W2_main_arg0 m ρ c).trans ((W1_arr m ρ c 0).trans (((dat0 (E0 m ρ) c).arrAt_in 0 rfl _).trans (A_eq0 (E0 m ρ) c 0)))

/-- After the reduction kernel its result row holds the column sums of squares of the argument. -/
theorem W1_v0 (c : Dev nD) (col : Fin 2048) :
    (W1 m ρ c (Proc.devRef .tc main_call0_v0) : S1x2048.Idx → EReal) (ix2 (0 : Fin 1) col)
      = Cert.Spec.colsq (m ((c : Thread nD τ).loc main_arg0)) col := by
  rw [show W1 m ρ c (Proc.devRef .tc main_call0_v0) = (dat0 (E0 m ρ) c).arrAt 1 cfg0.N from W1_arr m ρ c 1, final0]
  rfl

/-- So the scale row holds, at each column, its antenna's `sqrt (1 / energy)`. -/
theorem scale_row_val (c : Dev nD) (col : Fin 2048) :
    (E2 m ρ c main_call0_v17 : S1x2048.Idx → EReal) (ix2 (0 : Fin 1) col)
      = Cert.Spec.scaleOf (Cert.Spec.energy (m ((c : Thread nD τ).loc main_arg0)) (Cert.Spec.ant col)) :=
  Cert.KernelIdeal.HostMid.scale_row (W1 m ρ c) (fun col => Cert.Spec.colsq (m ((c : Thread nD τ).loc main_arg0)) col) (W1_v0 m ρ c) col

/-- The result array of the scaling kernel is the specification's function of the argument. -/
theorem kernel_G (c : Dev nD) : (dat1 (E2 m ρ) c).arrAt 2 cfg1.N = Cert.Spec.G (m ((c : Thread nD τ).loc main_arg0)) := by
  rw [final1, E2_arg]
  funext i
  unfold scaled Cert.Spec.G
  rw [scale_row_val m ρ c]
  rfl

/-- The idealized kernel program's run, read: the result at the specification's function of the argument, the argument
    as launched. -/
theorem run_G : θ_run defs (onTc (τ := τ) (main (F := Ideal))) ⟨m, fun _ => 0, ρ⟩ (fun r => ∀ c : Dev nD,
      r.2.mem ((c.tc : Thread nD τ).loc main_v0) = Cert.Spec.G (m ((c.tc : Thread nD τ).loc main_arg0))
      ∧ r.2.mem ((c.tc : Thread nD τ).loc main_arg0) = m ((c.tc : Thread nD τ).loc main_arg0)) :=
  (θ_run defs _ _).mono (fun _ h c => ⟨(h c).1.trans (kernel_G m ρ c), (h c).2⟩) (run_all (F := Ideal) m ρ)

end Cert.KernelIdeal.HandV

end
-- ==== Proof.RefSideA.lean ====
/-
  The host's sum of a [32768, 64, 16] array over its first and last axes, read at a coordinate of the middle axis.

  The sum-reduce of an array over a set of axes is, at a result index, the initial value plus the sum of the array over
  the source indices that drop to it. Over the axes 0 and 2 of a rank-3 array the source indices that drop to `a` are the
  triples `(b, a, k)`, so the sum is the double sum over `b` and `k`.
-/
import Idealize.ShloMosaic.Lib.ValueIdx
import Idealize.ShloMosaic.PureOps.Ideal.Laws
import Idealize.ShloMosaic.PureOps.Reduce

noncomputable section

open scoped BigOperators

namespace Cert.RefSide

open Idealize.ShloMosaic Idealize.ShloMosaic.ValueIdx

/-- The rank-3 shape summed over, and the rank-1 shape summed into. -/
abbrev S3 : Shape := ⟨3, ![32768, 64, 16]⟩
abbrev S1 : Shape := ⟨1, ![64]⟩

/-- Dropping axes 0 and 2 of a rank-3 index keeps its middle coordinate. -/
theorem drop_val (h : S3.ReducesTo [0, 2] S1) (i : S3.Idx) : (h.drop i 0 : Nat) = (i 1 : Nat) :=
  Shape.ReducesTo.drop_apply_val_of_eq h i 0 1

/-- The triple `(b, a, k)` drops to `a`. -/
theorem drop_ix3 (h : S3.ReducesTo [0, 2] S1) (b : Fin 32768) (a : Fin 64) (k : Fin 16) :
    h.drop (ix3 b a k) = ix1 a := by
  funext d
  match d with
  | ⟨0, _⟩ => exact Fin.ext (drop_val h (ix3 b a k))

/-- An index that drops to `a` has middle coordinate `a`. -/
theorem mid_of_drop (h : S3.ReducesTo [0, 2] S1) (i : S3.Idx) (a : Fin 64) (hi : h.drop i = ix1 a) :
    (i 1 : Nat) = a.val :=
  (drop_val h i).symm.trans (congrArg (fun j : S1.Idx => ((j 0 : Fin 64) : Nat)) hi)

/-- The host's sum over axes 0 and 2, at `a`: the initial value plus the double sum over `b` and `k` of the entries
    `(b, a, k)`. The source indices that drop to `a` are first grouped by their first coordinate `b`; those with first
    coordinate `b` are then the triples `(b, a, k)`, one for each `k`. -/
theorem hostReduce02_apply (h : S3.ReducesTo [0, 2] S1) (f : S3.Idx → EReal) (init : EReal) (a : Fin 64) :
    Ideal.hostReduceAdd h f init (ix1 a) = init + ∑ b : Fin 32768, ∑ k : Fin 16, f (ix3 b a k) := by
  unfold Ideal.hostReduceAdd
  refine congrArg (fun s => init + s) ?_
  rw [← Finset.sum_fiberwise (Finset.univ.filter fun i => h.drop i = ix1 a) (fun i : S3.Idx => (i 0 : Fin 32768)) f]
  refine Finset.sum_congr rfl fun b _ => ?_
  refine Finset.sum_bij' (fun i _ => (i 2 : Fin 16)) (fun k _ => ix3 b a k) (fun _ _ => Finset.mem_univ _)
    (fun k _ => Finset.mem_filter.mpr ⟨Finset.mem_filter.mpr ⟨Finset.mem_univ _, drop_ix3 h b a k⟩, rfl⟩)
    ?_ (fun _ _ => rfl) ?_
  · intro i hi
    have h1 := Finset.mem_filter.mp hi
    have hm := mid_of_drop h i a (Finset.mem_filter.mp h1.1).2
    have h0 : (i 0 : Fin 32768) = b := h1.2
    funext d
    match d with
    | ⟨0, _⟩ => exact h0.symm
    | ⟨1, _⟩ => exact Fin.ext hm.symm
    | ⟨2, _⟩ => rfl
  · intro i hi
    have h1 := Finset.mem_filter.mp hi
    have hm := mid_of_drop h i a (Finset.mem_filter.mp h1.1).2
    have h0 : (i 0 : Fin 32768) = b := h1.2
    refine congrArg f ?_
    funext d
    match d with
    | ⟨0, _⟩ => exact h0
    | ⟨1, _⟩ => exact Fin.ext hm
    | ⟨2, _⟩ => rfl

end Cert.RefSide

end
-- ==== Proof.RefSideB.lean ====
/-
  The reference program's stages read at an index, down to the argument array.

  The reference cuts the argument `P : [32768, 2048]` into its left and right halves, views each as `[32768, 64, 16]`
  (column `c` of a half is antenna `c / 16`, user `c % 16`), sums the squares of both over the batch and the users into
  one energy per antenna, takes `sqrt (1 / energy)`, multiplies each half by its antenna's value and views the halves
  as `[32768, 1024]` again. Each stage is read here at an index built from literal coordinates:
  • the two reshaped halves at `(b, a, k)` are `P` at `(b, lo a k)` and at `(b, hi a k)`;
  • the energy at `a` is the specification's `energy P a` (the double sum over batch and users is split into the two
    halves' sums and each is turned into a sum over users of column sums);
  • the scale at `a` is `scaleOf (energy P a)`, and the scaled halves at a column are `P` there times that scale.
-/
import proofs.«178488_j21827023798275_2_alg».proof.Proof.Gen.ReferenceIdeal.Read
import proofs.«178488_j21827023798275_2_alg».proof.Proof.Spec
import proofs.«178488_j21827023798275_2_alg».proof.Proof.RefSideA
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Gen Cert.ReferenceIdeal.Read Cert.Spec
open Idealize.ShloMosaic Idealize.ShloMosaic.ValueIdx

/-- The argument array's type, as the stages take it. -/
abbrev Arg : Type := (⟨S32768x2048, .f32⟩ : BufTy).Contents (Elt Ideal)

/-! ## The two halves, reshaped -/

/-- Through the reshape and the left slice, `(b, a, k)` is the argument's `(b, 16 a + k)`. -/
theorem idx_lo (b : Fin 32768) (a : Fin 64) (k : Fin 16) :
    idx_main_v0 (idx_main_v1 (ix3 b a k)) = ix2 b (lo a k) := by
  have hb := b.isLt; have ha := a.isLt; have hk := k.isLt
  funext d
  match d with
  | ⟨0, _⟩ => exact Fin.ext (by show ((b.val * 64 + a.val) * 16 + k.val) / 1024 = b.val; omega)
  | ⟨1, _⟩ => exact Fin.ext (by show ((b.val * 64 + a.val) * 16 + k.val) % 1024 = 16 * a.val + k.val; omega)

/-- Through the reshape and the right slice, `(b, a, k)` is the argument's `(b, 1024 + 16 a + k)`. -/
theorem idx_hi (b : Fin 32768) (a : Fin 64) (k : Fin 16) :
    idx_main_v2 (idx_main_v3 (ix3 b a k)) = ix2 b (hi a k) := by
  have hb := b.isLt; have ha := a.isLt; have hk := k.isLt
  funext d
  match d with
  | ⟨0, _⟩ => exact Fin.ext (by show ((b.val * 64 + a.val) * 16 + k.val) / 1024 = b.val; omega)
  | ⟨1, _⟩ => exact Fin.ext (by show 1024 + ((b.val * 64 + a.val) * 16 + k.val) % 1024 = 1024 + 16 * a.val + k.val; omega)

theorem v1_ix3 (x0 : Arg) (b : Fin 32768) (a : Fin 64) (k : Fin 16) :
    val_main_v1 (F := Ideal) x0 (ix3 b a k) = x0 (ix2 b (lo a k)) := by
  rw [val_main_v1_apply, val_main_v0_apply, idx_lo]

theorem v3_ix3 (x0 : Arg) (b : Fin 32768) (a : Fin 64) (k : Fin 16) :
    val_main_v3 (F := Ideal) x0 (ix3 b a k) = x0 (ix2 b (hi a k)) := by
  rw [val_main_v3_apply, val_main_v2_apply, idx_hi]

/-- The summand of the energy at `(b, a, k)`: the two halves' squares. -/
theorem v6_ix3 (x0 : Arg) (b : Fin 32768) (a : Fin 64) (k : Fin 16) :
    val_main_v6 (F := Ideal) x0 (ix3 b a k)
      = x0 (ix2 b (lo a k)) * x0 (ix2 b (lo a k)) + x0 (ix2 b (hi a k)) * x0 (ix2 b (hi a k)) := by
  rw [val_main_v6_apply, val_main_v4_apply, val_main_v5_apply, v1_ix3, v3_ix3]
  rfl

/-! ## The energy and the scale -/

/-- The reference's energy at antenna `a` is the specification's. -/
theorem v7_ix1 (x0 : Arg) (a : Fin 64) : val_main_v7 (F := Ideal) x0 (ix1 a) = energy x0 a := by
  unfold val_main_v7
  refine (hostReduce02_apply reducesTo_S32768x64x16_S64_d0_2 (val_main_v6 (F := Ideal) x0) _ a).trans ?_
  rw [val_main_cst_apply]
  show Ideal.ofBits .f32 0x00000000#32 + _ = _
  rw [Ideal.ofBits_zero_f32, zero_add]
  rw [Finset.sum_congr rfl fun b _ => Finset.sum_congr rfl fun k _ => v6_ix3 x0 b a k]
  simp only [Finset.sum_add_distrib]
  unfold energy colsq
  exact congrArg₂ (· + ·) Finset.sum_comm Finset.sum_comm

/-- The reference's scale at antenna `a`. -/
theorem v10_ix1 (x0 : Arg) (a : Fin 64) : val_main_v10 (F := Ideal) x0 (ix1 a) = scaleOf (energy x0 a) := by
  rw [val_main_v10_apply, val_main_v9_apply, val_main_v8_apply, val_main_cst_0_apply, v7_ix1,
    Ideal.hostDivf_def, Ideal.hostUnary_sqrt_def, Ideal.ofBits_def]
  unfold scaleOf
  exact Eq.refl _

/-- The scale broadcast over batch and users, at `(b, a, k)` (the left half's copy). -/
theorem v12_ix3 (x0 : Arg) (b : Fin 32768) (a : Fin 64) (k : Fin 16) :
    val_main_v12 (F := Ideal) x0 (ix3 b a k) = scaleOf (energy x0 a) := by
  rw [val_main_v12_apply, val_main_v11_apply,
    show idx_main_v11 (idx_main_v12 (ix3 b a k)) = ix1 a from funext fun d => match d with | ⟨0, _⟩ => Fin.ext rfl]
  exact v10_ix1 x0 a

/-- The scale broadcast over batch and users, at `(b, a, k)` (the right half's copy). -/
theorem v15_ix3 (x0 : Arg) (b : Fin 32768) (a : Fin 64) (k : Fin 16) :
    val_main_v15 (F := Ideal) x0 (ix3 b a k) = scaleOf (energy x0 a) := by
  rw [val_main_v15_apply, val_main_v14_apply,
    show idx_main_v14 (idx_main_v15 (ix3 b a k)) = ix1 a from funext fun d => match d with | ⟨0, _⟩ => Fin.ext rfl]
  exact v10_ix1 x0 a

/-! ## The scaled halves -/

theorem v13_ix3 (x0 : Arg) (b : Fin 32768) (a : Fin 64) (k : Fin 16) :
    val_main_v13 (F := Ideal) x0 (ix3 b a k) = x0 (ix2 b (lo a k)) * scaleOf (energy x0 a) := by
  rw [val_main_v13_apply, v1_ix3, v12_ix3]
  rfl

theorem v16_ix3 (x0 : Arg) (b : Fin 32768) (a : Fin 64) (k : Fin 16) :
    val_main_v16 (F := Ideal) x0 (ix3 b a k) = x0 (ix2 b (hi a k)) * scaleOf (energy x0 a) := by
  rw [val_main_v16_apply, v3_ix3, v15_ix3]
  rfl

/-- The antenna and the user of a half's column. -/
def antOf (c : Fin 1024) : Fin 64 := ⟨c.val / 16, by omega⟩
def usrOf (c : Fin 1024) : Fin 16 := ⟨c.val % 16, by omega⟩

/-- Viewed as `[32768, 1024]` again, `(b, c)` is `(b, c / 16, c % 16)` (the left half). -/
theorem idx_17 (b : Fin 32768) (c : Fin 1024) : idx_main_v17 (ix2 b c) = ix3 b (antOf c) (usrOf c) := by
  have hb := b.isLt; have hc := c.isLt
  funext d
  match d with
  | ⟨0, _⟩ => exact Fin.ext (by show (b.val * 1024 + c.val) / 1024 = b.val; omega)
  | ⟨1, _⟩ => exact Fin.ext (by show (b.val * 1024 + c.val) / 16 % 64 = c.val / 16; omega)
  | ⟨2, _⟩ => exact Fin.ext (by show (b.val * 1024 + c.val) % 16 = c.val % 16; omega)

/-- Viewed as `[32768, 1024]` again, `(b, c)` is `(b, c / 16, c % 16)` (the right half). -/
theorem idx_18 (b : Fin 32768) (c : Fin 1024) : idx_main_v18 (ix2 b c) = ix3 b (antOf c) (usrOf c) := by
  have hb := b.isLt; have hc := c.isLt
  funext d
  match d with
  | ⟨0, _⟩ => exact Fin.ext (by show (b.val * 1024 + c.val) / 1024 = b.val; omega)
  | ⟨1, _⟩ => exact Fin.ext (by show (b.val * 1024 + c.val) / 16 % 64 = c.val / 16; omega)
  | ⟨2, _⟩ => exact Fin.ext (by show (b.val * 1024 + c.val) % 16 = c.val % 16; omega)

/-- The scaled left half at `(b, c)`. -/
theorem v17_ix2 (x0 : Arg) (b : Fin 32768) (c : Fin 1024) :
    val_main_v17 (F := Ideal) x0 (ix2 b c)
      = x0 (ix2 b (lo (antOf c) (usrOf c))) * scaleOf (energy x0 (antOf c)) := by
  rw [val_main_v17_apply, idx_17, v13_ix3]

/-- The scaled right half at `(b, c)`. -/
theorem v18_ix2 (x0 : Arg) (b : Fin 32768) (c : Fin 1024) :
    val_main_v18 (F := Ideal) x0 (ix2 b c)
      = x0 (ix2 b (hi (antOf c) (usrOf c))) * scaleOf (energy x0 (antOf c)) := by
  rw [val_main_v18_apply, idx_18, v16_ix3]

end Cert.RefSide

end
-- ==== Proof.RefSide.lean ====
/-
  The reference program computes the specification.

  The reference's result is the concatenation, along the columns, of its two scaled halves. At `(b, c)` with `c < 1024`
  it is the left half at `(b, c)`: `P (b, c)` times the scale of antenna `c / 16`; with `c ≥ 1024` it is the right half at
  `(b, c - 1024)`: `P (b, c)` times the scale of antenna `(c - 1024) / 16`. In both cases the antenna is
  `(c % 1024) / 16`, the specification's `ant c`, so the result is the specification's `G P`. The run of the program
  then ends with its result buffer at `G` of the argument and the argument unchanged.
-/
import proofs.«178488_j21827023798275_2_alg».proof.Proof.Gen.ReferenceIdeal.Read
import proofs.«178488_j21827023798275_2_alg».proof.Proof.Spec
import proofs.«178488_j21827023798275_2_alg».proof.Proof.RefSideB
import Idealize.ShloMosaic.Lib.ValueIdx
import Idealize.ShloMosaic.Lib.Pipeline.Value

noncomputable section

namespace Cert.RefSide

open Cert.ReferenceIdeal Cert.ReferenceIdeal.Gen Cert.ReferenceIdeal.Read Cert.Spec
open Idealize.ShloMosaic Idealize.ShloMosaic.ValueIdx Idealize.ShloMosaic.TcCoe Idealize.SL.Sem

/-- The reference's result, as a function of the argument array, is the specification. -/
theorem val_main_v19_eq_G (x0 : Arg) : val_main_v19 (F := Ideal) x0 = G x0 := by
  funext i
  obtain ⟨b, c, rfl⟩ : ∃ (b : Fin 32768) (c : Fin 2048), i = ix2 b c := ⟨i 0, i 1, eq_ix2 i⟩
  show _ = x0 (ix2 b c) * scaleOf (energy x0 (ant c))
  unfold val_main_v19
  by_cases hc : c.val < 1024
  · -- the left half
    refine (concatenate_pair_apply_left (1 : Fin S32768x2048.rank) (val_main_v17 (F := Ideal) x0) (val_main_v18 (F := Ideal) x0)
      concatenates_S32768x1024_S32768x1024_S32768x2048_d1 (ix2 b c) rfl (ix2 b (⟨c.val, hc⟩ : Fin 1024))
      (fun d => match d with | ⟨0, _⟩ => rfl | ⟨1, _⟩ => rfl)).trans ?_
    rw [v17_ix2]
    have h1 : lo (antOf ⟨c.val, hc⟩) (usrOf ⟨c.val, hc⟩) = c :=
      Fin.ext (by show 16 * (c.val / 16) + c.val % 16 = c.val; omega)
    have h2 : antOf ⟨c.val, hc⟩ = ant c := Fin.ext (by show c.val / 16 = c.val % 1024 / 16; omega)
    rw [h1, h2]
  · -- the right half
    have hc2 : c.val - 1024 < 1024 := by have := c.isLt; omega
    refine (concatenate_pair_apply_right (1 : Fin S32768x2048.rank) (val_main_v17 (F := Ideal) x0) (val_main_v18 (F := Ideal) x0)
      concatenates_S32768x1024_S32768x1024_S32768x2048_d1 (ix2 b c) rfl rfl (ix2 b (⟨c.val - 1024, hc2⟩ : Fin 1024))
      (fun d => match d with | ⟨0, _⟩ => fun _ => rfl | ⟨1, _⟩ => fun hne => absurd rfl hne)
      (by show c.val - 1024 + 1024 = c.val; omega)).trans ?_
    rw [v18_ix2]
    have h1 : hi (antOf ⟨c.val - 1024, hc2⟩) (usrOf ⟨c.val - 1024, hc2⟩) = c :=
      Fin.ext (by show 1024 + 16 * ((c.val - 1024) / 16) + (c.val - 1024) % 16 = c.val; omega)
    have h2 : antOf ⟨c.val - 1024, hc2⟩ = ant c :=
      Fin.ext (by show (c.val - 1024) / 16 = c.val % 1024 / 16; have := c.isLt; omega)
    rw [h1, h2]

end Cert.RefSide

open Idealize.ShloMosaic Idealize.ShloMosaic.TcCoe Idealize.SL.Sem in
/-- Every weakly fair execution of the reference program ends with its result buffer at the specification of the
    argument array, and the argument array unchanged. -/
theorem Cert.RefSide.run_G (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v19) = Cert.Spec.G (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) :=
  (θ_run _ _ _).mono (fun _ h c => ⟨(h c).1.trans (Cert.RefSide.val_main_v19_eq_G _), (h c).2⟩)
    (Cert.ReferenceIdeal.Value.run (F := Ideal) m ρ)

end
-- ==== Proof.lean ====
/-
  The proof of `Cert.Claim`: three frames, the (empty) idealization ledger, and the equality of the idealized kernel
  program and the idealized reference on the extended reals.

  THE MATHEMATICS. The argument `P : [32768, 2048]` holds, per sample (row), a 64 × 16 complex matrix: real parts in columns
  `16 a + k`, imaginary parts in columns `1024 + 16 a + k` (antenna `a`, user `k`). Both programs scale every entry by
  `sqrt (1 / energy a)` of its column's antenna, where `energy a` is the sum over all samples and users of |entry|².
    * The kernel program computes it in three steps: a first kernel sums the squares of every COLUMN over the batch (a grid
      of 2 column halves × 16 row blocks, an accumulator zeroed at the first row block of a half, added to at every row block,
      copied out at the last); host operations add each antenna's 16 real and 16 imaginary column sums, take
      `sqrt (1 / ·)` and spread the 64 scales back over the 2048 columns; a second kernel multiplies row blocks of `P` by
      that scale row.
    * The reference sums `re² + im²` over samples and users at once, and multiplies.
  The two energies are the same sum of the same terms in another order and grouping: on the extended reals addition is
  commutative and associative and `0 + x = x`, whatever the terms are, so no finiteness is used, and `sqrt`, `1 / ·` and the
  products are applied to equal values on both sides. `Cert.Spec.G` is that common function; the kernel side reaches it in
  `HandV.run_G`, the reference side in `RefSide.run_G`.

  THE FRAMES. Each kernel program (at the word level and idealized) is run as its three segments — kernel, host stretch,
  kernel — with, for the first kernel, an invariant that carries the accumulator's contents from point to point
  (`Hand.run_all`); the argument is an input window of both kernels and no host operation writes it. The reference is
  host operations only; its frame is its run with the result dropped.
-/
import proofs.«178488_j21827023798275_2_alg».proof.Defs
import proofs.«178488_j21827023798275_2_alg».proof.Proof.Gen.Kernel
import proofs.«178488_j21827023798275_2_alg».proof.Proof.Gen.KernelIdeal
import proofs.«178488_j21827023798275_2_alg».proof.Proof.Gen.ReferenceIdeal
import proofs.«178488_j21827023798275_2_alg».proof.Proof.Gen.Pre_finite_inputs
import proofs.«178488_j21827023798275_2_alg».proof.Proof.Gen.ReferenceIdeal.Run
import proofs.«178488_j21827023798275_2_alg».proof.Proof.K_Run
import proofs.«178488_j21827023798275_2_alg».proof.Proof.KI_Val
import proofs.«178488_j21827023798275_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs to the end and leaves its argument as launched. -/
theorem frame_p : Cert.frame_Kernel := fun m ρ _ =>
  (θ_run Cert.Kernel.defs _ _).mono (fun _ h c => (h c).2) (Cert.Kernel.Hand.run_all (F := Bits) m ρ)

/-- So does the idealized kernel program. -/
theorem frame_pi : Cert.frame_KernelIdeal := fun m ρ _ =>
  (θ_run Cert.KernelIdeal.defs _ _).mono (fun _ h c => (h c).2) (Cert.KernelIdeal.Hand.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's function of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.HandV.run_G m ρ, ?_⟩
  refine (θ_run Cert.ReferenceIdeal.defs _ _).mono (fun _ h c => ⟨(h c).1.trans ?_, (h c).2⟩) (Cert.RefSide.run_G m' ρ')
  rw [hagree c]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
